-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩

abbrev nBuf : Space → Nat
  | .hbm => 107
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S1600000x1, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x1, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S1600000x1, .f32⟩
  | .hbm, ⟨99, _⟩ => ⟨S1600000x64, .f32⟩
  | .hbm, ⟨100, _⟩ => ⟨S1600000x64, .f32⟩
  | .hbm, ⟨101, _⟩ => ⟨S_, .f32⟩
  | .hbm, ⟨102, _⟩ => ⟨S100000x64, .f32⟩
  | .hbm, ⟨103, _⟩ => ⟨S1600000x1, .i32⟩
  | .hbm, ⟨104, _⟩ => ⟨S100000x64, .f32⟩
  | .hbm, ⟨105, _⟩ => ⟨S1x64, .f32⟩
  | .hbm, ⟨106, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v46) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x1, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x1, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x128, .f32⟩

abbrev hbmTy0_1 (i : Nat) : BufTy := match i % 128 with
  | 0 => ⟨S100000x64, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S100000x64, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x1, .f32⟩
  | 56 => ⟨S1600000x64, .f32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S100000, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_19 : Ref sig .tc := ⟨.hbm, 113, rfl⟩
abbrev main_v78 : Ref sig .tc := ⟨.hbm, 114, rfl⟩
abbrev main_v79 : Ref sig .tc := ⟨.hbm, 115, rfl⟩
abbrev main_c_20 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_21 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_22 : Ref sig .tc := ⟨.hbm, 138, rfl⟩
abbrev main_v100 : Ref sig .tc := ⟨.hbm, 139, rfl⟩
abbrev main_cst_23 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_24 : Ref sig .tc := ⟨.hbm, 144, rfl⟩
abbrev main_v104 : Ref sig .tc := ⟨.hbm, 145, rfl⟩
abbrev main_v105 : Ref sig .tc := ⟨.hbm, 146, rfl⟩
abbrev main_cst_25 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_26 : Ref sig .tc := ⟨.hbm, 151, rfl⟩
abbrev main_call3_v0 : Ref sig .tc := ⟨.hbm, 152, rfl⟩
abbrev main_call3_v1 : Ref sig .tc := ⟨.hbm, 153, rfl⟩
abbrev main_v109 : Ref sig .tc := ⟨.hbm, 154, rfl⟩
abbrev main_c_27 : Ref sig .tc := ⟨.hbm, 155, rfl⟩
abbrev main_v110 : Ref sig .tc := ⟨.hbm, 156, rfl⟩
abbrev main_v111 : Ref sig .tc := ⟨.hbm, 157, rfl⟩
abbrev main_c_28 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_29 : Ref sig .tc := ⟨.hbm, 164, rfl⟩
abbrev main_v117 : Ref sig .tc := ⟨.hbm, 165, rfl⟩
abbrev main_v118 : Ref sig .tc := ⟨.hbm, 166, rfl⟩
abbrev main_c_30 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_31 : Ref sig .tc := ⟨.hbm, 174, rfl⟩
abbrev main_v125 : Ref sig .tc := ⟨.hbm, 175, rfl⟩
abbrev main_v126 : Ref sig .tc := ⟨.hbm, 176, rfl⟩
abbrev main_c_32 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_33 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its two results kept.

  The program is six pipelined calls among stretches of host operations. Its run ends with every unscoped
  buffer of a core at the last boundary's contents, the fold `W12` of the host stretches and the calls'
  write-backs over the launch memory. Here that run is stated once more with the two result buffers (the
  mean and the log-deviation tables, 100000 x 64 each) read at `W12` beside the eight unchanged arguments;
  what `W12` holds there is computed in the modules that follow.
-/
import proofs.«154436_j91319594647569_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the
    last boundary's contents and the eight argument arrays as launched. -/
theorem run : θ_run defs (onTc (τ := τ) (main (F := F))) ⟨m, fun _ => 0, ρ⟩ (fun r => ∀ c : Dev nD,
      r.2.mem ((c.tc : Thread nD τ).loc main_v62) = W12 m ρ c (Proc.devRef .tc main_v62)
      ∧ r.2.mem ((c.tc : Thread nD τ).loc main_v78) = W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v62 (by decide)),
       h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Results

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Spec.lean ====
/-
  A graph convolution layer as whole-array functions on the extended reals, and its pieces read at an entry.

  One layer takes a table `h = x · W` of 100000 rows and 64 columns, an aggregated table `a` of the same shape
  (each row the weighted sum of the rows of `h` along the edges that end at it), a vector `d` of one factor per
  row (the reciprocal of the row's degree) and a bias vector `b`, and returns `(a + h · d) + b`, entry
  `(r, c)` using `d r` and `b c`. The hidden layer keeps the positive part. Nothing here needs the entries to be
  finite: only sums and products in the order written.

  Below the definitions: how the two kernel bodies compute these on a block of 10000 rows (a product narrowed
  to bf16, which is the identity on extended reals, into a zero accumulator; the combination with the
  `10000 x 1` column of factors and the `1 x 64` bias row repeated over the block), and the layout operations
  both programs use to lay a vector out as a column or a row and repeat it.
-/
import Idealize.ShloMosaic.Lib.ValueIdx
import Idealize.ShloMosaic.Lib.ValueLayout
import Idealize.ShloMosaic.Lib.Pipeline.Value
import Idealize.ShloMosaic.PureOps.Ideal.Laws
import proofs.«154436_j91319594647569_1_alg».proof.Proof.LibPlainDot

noncomputable section

open scoped BigOperators

namespace Cert.Gcn

open Idealize.ShloMosaic Idealize.ShloMosaic.ValueIdx

/-! ## Layout: a vector as a column or a row, repeated -/

section Layout
variable {α : Type}

/-- An `[a, 1]` column repeated along `b` columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The host's two steps `[a] → [a, 1] → [a, b]`: entry `(p, c)` is the vector at `p`. -/
theorem spread_col_apply {a b : ℕ} (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 x) (ix2 p c) = x (ix1 p) := by
  rw [broadcastInDim_apply ![0, 1] h2 _ (ix2 p c) (ix2 p (0 : Fin 1)) (fun ax => by
    match ax with
    | ⟨0, _⟩ =>
      show p.val = if a = 1 then 0 else p.val
      split
      · have := p.isLt; omega
      · rfl
    | ⟨1, _⟩ => rfl)]
  exact broadcastInDim_apply ![0] h1 x (ix2 p (0 : Fin 1)) (ix1 p) (fun ax => by
    match ax with
    | ⟨0, _⟩ =>
      show p.val = if a = 1 then 0 else p.val
      split
      · have := p.isLt; omega
      · rfl)

/-- The host's two steps `[b] → [1, b] → [a, b]`: entry `(p, c)` is the vector at `c`. -/
theorem spread_row_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 x) (ix2 p c) = x (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  exact broadcastInDim_apply ![1] h1 x (ix2 (0 : Fin 1) c) (ix1 c) (fun ax => by
    match ax with
    | ⟨0, _⟩ =>
      show c.val = if b = 1 then 0 else c.val
      split
      · have := c.isLt; omega
      · rfl)

end Layout

/-! ## The layer as whole-array functions -/

/-- The product of a `100000 x K` table with a `K x 64` weight: entry `(r, c)` is `∑ k, x (r, k) · w (k, c)`. -/
def prod {K : ℕ} (x : FVec Ideal ⟨2, ![100000, K]⟩ .f32) (w : FVec Ideal ⟨2, ![K, 64]⟩ .f32) :
    FVec Ideal ⟨2, ![100000, 64]⟩ .f32 :=
  fun i => ∑ k : Fin K, x (ix2 (i 0) k) * w (ix2 k (i 1))

/-- The layer's combination `(a + h · d) + b`: entry `(r, c)` uses the row's factor `d r` and the column's bias `b c`. -/
def epi (a h : FVec Ideal ⟨2, ![100000, 64]⟩ .f32) (d : FVec Ideal ⟨1, ![100000]⟩ .f32) (b : FVec Ideal ⟨1, ![64]⟩ .f32) :
    FVec Ideal ⟨2, ![100000, 64]⟩ .f32 :=
  fun i => (a i + h i * d (ix1 (i 0))) + b (ix1 (i 1))

/-- The positive part, entry by entry (the zero is the word of `0.0`, never evaluated). -/
def pos (z : FVec Ideal ⟨2, ![100000, 64]⟩ .f32) : FVec Ideal ⟨2, ![100000, 64]⟩ .f32 :=
  fun i => max (z i) (Ideal.ofBits .f32 0x00000000#32)

/-- The same combination with the factors held as a `100000 x 1` column and the bias as a `1 x 64` row, which is how
    the pipelined calls receive them. -/
def epiCols (a h : FVec Ideal ⟨2, ![100000, 64]⟩ .f32) (d : FVec Ideal ⟨2, ![100000, 1]⟩ .f32) (b : FVec Ideal ⟨2, ![1, 64]⟩ .f32) :
    FVec Ideal ⟨2, ![100000, 64]⟩ .f32 :=
  fun i => (a i + h i * d (ix2 (i 0) (0 : Fin 1))) + b (ix2 (0 : Fin 1) (i 1))

/-- With the column and the row made from vectors by shape casts it is the combination over the vectors. -/
theorem epiCols_shapeCast (a h : FVec Ideal ⟨2, ![100000, 64]⟩ .f32) (d : FVec Ideal ⟨1, ![100000]⟩ .f32) (b : FVec Ideal ⟨1, ![64]⟩ .f32)
    (h1 : (⟨1, ![100000]⟩ : Shape).ShapeCasts ⟨2, ![100000, 1]⟩) (h2 : (⟨1, ![64]⟩ : Shape).ShapeCasts ⟨2, ![1, 64]⟩) :
    epiCols a h (shapeCast ⟨2, ![100000, 1]⟩ d h1) (shapeCast ⟨2, ![1, 64]⟩ b h2) = epi a h d b := by
  funext i
  obtain ⟨p, q, rfl⟩ : ∃ (p : Fin 100000) (q : Fin 64), i = ix2 p q := ⟨i 0, i 1, eq_ix2 i⟩
  show (a (ix2 p q) + h (ix2 p q) * shapeCast ⟨2, ![100000, 1]⟩ d h1 (ix2 p (0 : Fin 1)))
      + shapeCast ⟨2, ![1, 64]⟩ b h2 (ix2 (0 : Fin 1) q)
    = (a (ix2 p q) + h (ix2 p q) * d (ix1 p)) + b (ix1 q)
  rw [shapeCast_a_a1_apply, shapeCast_a_1a_apply]

/-! ## The kernel bodies on a block of 10000 rows, read at an entry -/

/-- The product body: both operands narrowed to bf16 (the identity here), multiplied into a zero accumulator. -/
theorem product_block {K : ℕ} (x0 : FVec Ideal ⟨2, ![10000, K]⟩ .f32) (x1 : FVec Ideal ⟨2, ![K, 64]⟩ .f32)
    (h0 : FTy.bf16.bits < FTy.f32.bits) (p : Fin 10000) (q : Fin 64) :
    FloatOps.matmul (DotDims.plain 10000 K 64) none (truncf .bf16 x0 h0) (truncf .bf16 x1 h0)
      (constant ⟨2, ![10000, 64]⟩ .f32 0x00000000#32) (ix2 p q) = ∑ k : Fin K, x0 (ix2 p k) * x1 (ix2 k q) :=
  Cert.Lib.PlainDot.matmul_zero_apply none (truncf .bf16 x0 h0) (truncf .bf16 x1 h0) p q

/-- The combination body: `(a + h · column) + row`, the column repeated along the 64 columns and the row down the
    10000 rows; the shape casts in it change nothing. -/
theorem combine_block (v0 v2 : FVec Ideal ⟨2, ![10000, 64]⟩ .f32) (v4 : FVec Ideal ⟨2, ![10000, 1]⟩ .f32)
    (v9 : FVec Ideal ⟨2, ![1, 64]⟩ .f32)
    (c1 : (⟨2, ![10000, 64]⟩ : Shape).ShapeCasts ⟨2, ![10000, 64]⟩) (c2 : (⟨2, ![10000, 1]⟩ : Shape).ShapeCasts ⟨2, ![10000, 1]⟩)
    (c3 : (⟨2, ![1, 64]⟩ : Shape).ShapeCasts ⟨2, ![1, 64]⟩)
    (b1 : (⟨2, ![10000, 1]⟩ : Shape).Broadcasts ⟨2, ![10000, 64]⟩) (b2 : (⟨2, ![1, 64]⟩ : Shape).Broadcasts ⟨2, ![10000, 64]⟩)
    (p : Fin 10000) (q : Fin 64) :
    addf (addf (shapeCast ⟨2, ![10000, 64]⟩ v0 c1)
        (mulf (shapeCast ⟨2, ![10000, 64]⟩ v2 c1) (broadcastTo ⟨2, ![10000, 64]⟩ (shapeCast ⟨2, ![10000, 1]⟩ v4 c2) b1)))
      (broadcastTo ⟨2, ![10000, 64]⟩ (shapeCast ⟨2, ![1, 64]⟩ v9 c3) b2) (ix2 p q)
    = (v0 (ix2 p q) + v2 (ix2 p q) * v4 (ix2 p (0 : Fin 1))) + v9 (ix2 (0 : Fin 1) q) := by
  rw [shapeCast_self, shapeCast_self, shapeCast_self, shapeCast_self]
  show (v0 (ix2 p q) + v2 (ix2 p q) * broadcastTo ⟨2, ![10000, 64]⟩ v4 b1 (ix2 p q))
      + broadcastTo ⟨2, ![10000, 64]⟩ v9 b2 (ix2 p q) = _
  rw [broadcastTo_a1_ab_apply, broadcastTo_1b_ab_apply]

end Cert.Gcn

end
-- ==== Proof.Call0.lean ====
/-
  Pipelined call 0: the product `main_arg0 · main_arg2`, ten blocks of 10000 rows.

  At grid point `t` the body loads rows `10000 t … 10000 t + 9999` of the table and the whole weight, multiplies
  them (both narrowed to bf16, which changes nothing on extended reals) into a zero accumulator, and writes the
  10000 x 64 result back to the same rows of the output. So what point `t` writes back is block `t` of the one
  whole-array product, and the ten blocks cover the output: it ends holding the product.
-/
import proofs.«154436_j91319594647569_1_alg».proof.Proof.Gen.KernelIdeal.Frame
import proofs.«154436_j91319594647569_1_alg».proof.Proof.Spec

set_option maxRecDepth 16384

noncomputable section

open scoped BigOperators

namespace Cert.KernelIdeal.Call0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the table's and the output's blocks move down the rows with the
    point, the weight's block stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at entry `(p, q)` of its block: the inner product of row `p` of the table block with column `q`
    of the weight. -/
theorem pay_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact product_block x0 x1 bitsLt_bf16_f32 p q

/-- Row `p` of the table's block at point `t` is row `10000 t + p` of the table. -/
theorem table_block (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : S100000x128.Idx → Elt Ideal .f32) (ix2 r k) := by
  obtain ⟨e0, e1, -, -, -, -⟩ := idx t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The weight's block at every point is the weight. -/
theorem weight_block (c : Dev nD) (t : Fin cfg0.N) (k : Fin 128) (q : Fin 64) :
    (iblk0 V c 1 t : Vec Ideal S128x64 .f32) (ix2 k q) = (V c main_arg2 : S128x64.Idx → Elt Ideal .f32) (ix2 k q) := by
  obtain ⟨-, -, e2, e3, -, -⟩ := idx t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- What point `t` writes back is block `t` of the whole product. -/
theorem flushed_eq (c : Dev nD) (t : Fin cfg0.N) :
    (dat0 V c).flushed 2 t = ((cfg0.win 2).blk t).view.read (Elt Ideal) (prod (K := 128) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e4, e5⟩ := idx t
  have ht : t.val < 10 := lt_of_lt_of_eq t.isLt N_0
  funext j
  obtain ⟨p, q, rfl⟩ : ∃ (p : Fin 10000) (q : Fin 64), j = ix2 p q := ⟨j 0, j 1, eq_ix2 j⟩
  have hp : p.val < 10000 := p.isLt
  have hE : ((cfg0.win 2).blk t).view.emb (ix2 p q) = (ix2 (⟨t.val * 10000 + p.val, by omega⟩ : Fin 100000) q : S100000x64.Idx) := by
    funext a
    apply Fin.ext
    match a with
    | ⟨0, _⟩ => show win0_2.index t (0 : Fin 2) * 10000 + 1 * p.val = t.val * 10000 + p.val; rw [e4]; omega
    | ⟨1, _⟩ => show win0_2.index t (1 : Fin 2) * 64 + 1 * q.val = q.val; rw [e5]; omega
  rw [View.read_apply, hE]
  show k0_pay1 (iblk0 V c 0 t) (iblk0 V c 1 t) (ix2 p q)
    = prod (K := 128) (V c main_arg0) (V c main_arg2) (ix2 (⟨t.val * 10000 + p.val, by omega⟩ : Fin 100000) q)
  rw [pay_apply]
  unfold prod
  refine Finset.sum_congr rfl fun k _ => ?_
  rw [table_block V c t p k ⟨t.val * 10000 + p.val, by omega⟩ rfl, weight_block V c t k q] <;> rfl

/-- An index of the output is in point `t`'s block iff its row lies in the block's rows. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v31).slice (win0_2.rect t)).set ↔ _
  rw [View.set_slice_whole, Rect.mem_set_unit]
  exact Iff.rfl

/-- Row `r` is written back by point `r / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  obtain ⟨-, -, -, -, e4, e5⟩ := idx ⟨(i 0).val / 10000, by rw [hN]; omega⟩
  rw [mem_blk]
  intro a
  match a with
  | ⟨0, _⟩ =>
    show win0_2.index _ (0 : Fin 2) * 10000 ≤ (i 0).val ∧ (i 0).val < win0_2.index _ (0 : Fin 2) * 10000 + 10000
    rw [e4]
    show (i 0).val / 10000 * 10000 ≤ (i 0).val ∧ (i 0).val < (i 0).val / 10000 * 10000 + 10000
    omega
  | ⟨1, _⟩ =>
    show win0_2.index _ (1 : Fin 2) * 64 ≤ (i 1).val ∧ (i 1).val < win0_2.index _ (1 : Fin 2) * 64 + 64
    rw [e5]
    omega

/-- The output array after the call: the whole product of the two arrays the call found. -/
theorem final (c : Dev nD) :
    (dat0 V c).arrAt 2 cfg0.N = prod (K := 128) (V c main_arg0) (V c main_arg2) :=
  (dat0 V c).arrAt_eq_of_cover 2 _ (fun t _ => flushed_eq V c t) cover

end Cert.KernelIdeal.Call0

end
-- ==== Proof.Call1.lean ====
/-
  Pipelined call 1: the layer's combination `(a + h · d) + b`, positive part kept, ten blocks of 10000 rows.

  At grid point `t` the body loads rows `10000 t … 10000 t + 9999` of the aggregated table `a`, of the product `h` and
  of the `100000 x 1` column of factors `d`, and the whole `1 x 64` bias row `b`; it repeats the column along the 64
  columns and the row down the 10000 rows, forms `(a + h · d) + b` and its maximum with zero, and writes the block
  back to the same rows of the output. What point `t` writes back is block `t` of one whole-array function of
  the four arrays, and the ten blocks cover the output.
-/
import proofs.«154436_j91319594647569_1_alg».proof.Proof.Gen.KernelIdeal.Frame
import proofs.«154436_j91319594647569_1_alg».proof.Proof.Spec

set_option maxRecDepth 16384

noncomputable section

namespace Cert.KernelIdeal.Call1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the three row-blocked inputs and the output move down the rows
    with the point, the bias row's block stays. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's value at entry `(p, q)` of its block. -/
theorem pay_apply (v0 v2 : Vec Ideal S10000x64 .f32) (v4 : Vec Ideal S10000x1 .f32) (v9 : Vec Ideal S1x64 .f32)
    (p : Fin 10000) (q : Fin 64) :
    k1_pay1 v0 v2 v4 v9 (ix2 p q)
      = max ((v0 (ix2 p q) + v2 (ix2 p q) * v4 (ix2 p (0 : Fin 1))) + v9 (ix2 (0 : Fin 1) q)) (Ideal.ofBits .f32 0x00000000#32) :=
  congrArg (fun z => max z (Ideal.ofBits .f32 0x00000000#32))
    (combine_block v0 v2 v4 v9 shapeCasts_S10000x64_S10000x64 shapeCasts_S10000x1_S10000x1 shapeCasts_S1x64_S1x64
    broadcasts_S10000x1_S10000x64 broadcasts_S1x64_S10000x64 p q)

/-- Row `p` of the aggregated table's block at point `t` is row `10000 t + p` of the table. -/
theorem agg_block (c : Dev nD) (t : Fin cfg1.N) (p : Fin 10000) (q : Fin 64) (r : Fin 100000)
    (hr : r.val = t.val * 10000 + p.val) :
    (iblk1 V c 0 t : Vec Ideal S10000x64 .f32) (ix2 p q) = (V c main_v44 : S100000x64.Idx → Elt Ideal .f32) (ix2 r q) := by
  obtain ⟨e0, e1, -, -, -, -, -, -, -, -⟩ := idx t
  unfold iblk1
  rw [View.read_apply]
  show V c main_v44 _ = V c main_v44 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * q.val = q.val; rw [e1]; omega

/-- The same for the product's block. -/
theorem h_block (c : Dev nD) (t : Fin cfg1.N) (p : Fin 10000) (q : Fin 64) (r : Fin 100000)
    (hr : r.val = t.val * 10000 + p.val) :
    (iblk1 V c 1 t : Vec Ideal S10000x64 .f32) (ix2 p q) = (V c main_v31 : S100000x64.Idx → Elt Ideal .f32) (ix2 r q) := by
  obtain ⟨-, -, e2, e3, -, -, -, -, -, -⟩ := idx t
  unfold iblk1
  rw [View.read_apply]
  show V c main_v31 _ = V c main_v31 _
  congr 1
  funext a
  apply Fin.ext
  match a with
  | ⟨0, _⟩ => show win1_1.index t (0 : Fin 2) * 10000 + 1 * p.val = r.val; rw [e2, hr]; omega
  | ⟨1, _⟩ => show win1_1.index t (1 : Fin 2) * 64 + 1 * q.val = q.val; rw [e3]; omega

/-- Entry `p` of the factor column's block at point `t` is entry `10000 t + p` of the column. -/
theorem col_block (c : Dev nD) (t : Fin cfg1.N) (p : Fin 10000) (r : Fin 100000)
    (hr : r.val = t.val * 10000 + p.val) :
    (iblk1 V c 2 t : Vec Ideal S10000x1 .f32) (ix2 p (0 : Fin 1)) = (V c main_v30 : S100000x1.Idx → Elt Ideal .f32) (ix2 r (0 : Fin 1)) := by
  obtain ⟨-, -, -, -, e4, e5, -, -, -, -⟩ := idx t
  unfold iblk1
  rw [View.read_apply]
  show V c main_v30 _ = V c main_v30 _
  congr 1
  funext a
  apply Fin.ext
  match a with
  | ⟨0, _⟩ => show win1_2.index t (0 : Fin 2) * 10000 + 1 * p.val = r.val; rw [e4, hr]; omega
  | ⟨1, _⟩ => show win1_2.index t (1 : Fin 2) * 1 + 1 * 0 = 0; rw [e5]

/-- The bias row's block at every point is the row. -/
theorem row_block (c : Dev nD) (t : Fin cfg1.N) (q : Fin 64) :
    (iblk1 V c 3 t : Vec Ideal S1x64 .f32) (ix2 (0 : Fin 1) q) = (V c main_v45 : S1x64.Idx → Elt Ideal .f32) (ix2 (0 : Fin 1) q) := by
  obtain ⟨-, -, -, -, -, -, e6, e7, -, -⟩ := idx t
  unfold iblk1
  rw [View.read_apply]
  show V c main_v45 _ = V c main_v45 _
  congr 1
  funext a
  apply Fin.ext
  match a with
  | ⟨0, _⟩ => show win1_3.index t (0 : Fin 2) * 1 + 1 * 0 = 0; rw [e6]
  | ⟨1, _⟩ => show win1_3.index t (1 : Fin 2) * 64 + 1 * q.val = q.val; rw [e7]; omega

/-- What point `t` writes back is block `t` of the whole-array combination. -/
theorem flushed_eq (c : Dev nD) (t : Fin cfg1.N) :
    (dat1 V c).flushed 4 t = ((cfg1.win 4).blk t).view.read (Elt Ideal)
      (pos (epiCols (V c main_v44) (V c main_v31) (V c main_v30) (V c main_v45))) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨-, -, -, -, -, -, -, -, e8, e9⟩ := idx t
  have ht : t.val < 10 := lt_of_lt_of_eq t.isLt N_1
  funext j
  obtain ⟨p, q, rfl⟩ : ∃ (p : Fin 10000) (q : Fin 64), j = ix2 p q := ⟨j 0, j 1, eq_ix2 j⟩
  have hp : p.val < 10000 := p.isLt
  have hE : ((cfg1.win 4).blk t).view.emb (ix2 p q) = (ix2 (⟨t.val * 10000 + p.val, by omega⟩ : Fin 100000) q : S100000x64.Idx) := by
    funext a
    apply Fin.ext
    match a with
    | ⟨0, _⟩ => show win1_4.index t (0 : Fin 2) * 10000 + 1 * p.val = t.val * 10000 + p.val; rw [e8]; omega
    | ⟨1, _⟩ => show win1_4.index t (1 : Fin 2) * 64 + 1 * q.val = q.val; rw [e9]; omega
  rw [View.read_apply, hE]
  show k1_pay1 (iblk1 V c 0 t) (iblk1 V c 1 t) (iblk1 V c 2 t) (iblk1 V c 3 t) (ix2 p q)
    = (pos (epiCols (V c main_v44) (V c main_v31) (V c main_v30) (V c main_v45))) (ix2 (⟨t.val * 10000 + p.val, by omega⟩ : Fin 100000) q)
  rw [pay_apply, agg_block V c t p q ⟨t.val * 10000 + p.val, by omega⟩ rfl, h_block V c t p q ⟨t.val * 10000 + p.val, by omega⟩ rfl,
    col_block V c t p ⟨t.val * 10000 + p.val, by omega⟩ rfl, row_block V c t q] <;> rfl

/-- An index of the output is in point `t`'s block iff its row lies in the block's rows. -/
theorem mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v46).slice (win1_4.rect t)).set ↔ _
  rw [View.set_slice_whole, Rect.mem_set_unit]
  exact Iff.rfl

/-- Row `r` is written back by point `r / 10000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_4 _, ?_⟩
  obtain ⟨-, -, -, -, -, -, -, -, e8, e9⟩ := idx ⟨(i 0).val / 10000, by rw [hN]; omega⟩
  rw [mem_blk]
  intro a
  match a with
  | ⟨0, _⟩ =>
    show win1_4.index _ (0 : Fin 2) * 10000 ≤ (i 0).val ∧ (i 0).val < win1_4.index _ (0 : Fin 2) * 10000 + 10000
    rw [e8]
    show (i 0).val / 10000 * 10000 ≤ (i 0).val ∧ (i 0).val < (i 0).val / 10000 * 10000 + 10000
    omega
  | ⟨1, _⟩ =>
    show win1_4.index _ (1 : Fin 2) * 64 ≤ (i 1).val ∧ (i 1).val < win1_4.index _ (1 : Fin 2) * 64 + 64
    rw [e9]
    omega

/-- The output array after the call: the whole-array combination of the four arrays the call found. -/
theorem final (c : Dev nD) :
    (dat1 V c).arrAt 4 cfg1.N = pos (epiCols (V c main_v44) (V c main_v31) (V c main_v30) (V c main_v45)) :=
  (dat1 V c).arrAt_eq_of_cover 4 _ (fun t _ => flushed_eq V c t) cover

end Cert.KernelIdeal.Call1

end
-- ==== Proof.Call2.lean ====
/-
  Pipelined call 2: the product `main_v46 · main_arg4`, ten blocks of 10000 rows.

  At grid point `t` the body loads rows `10000 t … 10000 t + 9999` of the table and the whole weight, multiplies
  them (both narrowed to bf16, which changes nothing on extended reals) into a zero accumulator, and writes the
  10000 x 64 result back to the same rows of the output. So what point `t` writes back is block `t` of the one
  whole-array product, and the ten blocks cover the output: it ends holding the product.
-/
import proofs.«154436_j91319594647569_1_alg».proof.Proof.Gen.KernelIdeal.Frame
import proofs.«154436_j91319594647569_1_alg».proof.Proof.Spec

set_option maxRecDepth 16384

noncomputable section

open scoped BigOperators

namespace Cert.KernelIdeal.Call2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the table's and the output's blocks move down the rows with the
    point, the weight's block stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at entry `(p, q)` of its block: the inner product of row `p` of the table block with column `q`
    of the weight. -/
theorem pay_apply (x0 : Vec Ideal S10000x64 .f32) (x1 : Vec Ideal S64x64 .f32) (p : Fin 10000) (q : Fin 64) :
    k2_pay1 x0 x1 (ix2 p q) = ∑ k : Fin 64, x0 (ix2 p k) * x1 (ix2 k q) := by
  unfold k2_pay1
  simp only [shapeCast_self]
  exact product_block x0 x1 bitsLt_bf16_f32 p q

/-- Row `p` of the table's block at point `t` is row `10000 t + p` of the table. -/
theorem table_block (c : Dev nD) (t : Fin cfg2.N) (p : Fin 10000) (k : Fin 64) (r : Fin 100000)
    (hr : r.val = t.val * 10000 + p.val) :
    (iblk2 V c 0 t : Vec Ideal S10000x64 .f32) (ix2 p k) = (V c main_v46 : S100000x64.Idx → Elt Ideal .f32) (ix2 r k) := by
  obtain ⟨e0, e1, -, -, -, -⟩ := idx t
  unfold iblk2
  rw [View.read_apply]
  show V c main_v46 _ = V c main_v46 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 64 + 1 * k.val = k.val; rw [e1]; omega

/-- The weight's block at every point is the weight. -/
theorem weight_block (c : Dev nD) (t : Fin cfg2.N) (k : Fin 64) (q : Fin 64) :
    (iblk2 V c 1 t : Vec Ideal S64x64 .f32) (ix2 k q) = (V c main_arg4 : S64x64.Idx → Elt Ideal .f32) (ix2 k q) := by
  obtain ⟨-, -, e2, e3, -, -⟩ := idx t
  unfold iblk2
  rw [View.read_apply]
  show V c main_arg4 _ = V c main_arg4 _
  congr 1
  funext a
  apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- What point `t` writes back is block `t` of the whole product. -/
theorem flushed_eq (c : Dev nD) (t : Fin cfg2.N) :
    (dat2 V c).flushed 2 t = ((cfg2.win 2).blk t).view.read (Elt Ideal) (prod (K := 64) (V c main_v46) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨-, -, -, -, e4, e5⟩ := idx t
  have ht : t.val < 10 := lt_of_lt_of_eq t.isLt N_2
  funext j
  obtain ⟨p, q, rfl⟩ : ∃ (p : Fin 10000) (q : Fin 64), j = ix2 p q := ⟨j 0, j 1, eq_ix2 j⟩
  have hp : p.val < 10000 := p.isLt
  have hE : ((cfg2.win 2).blk t).view.emb (ix2 p q) = (ix2 (⟨t.val * 10000 + p.val, by omega⟩ : Fin 100000) q : S100000x64.Idx) := by
    funext a
    apply Fin.ext
    match a with
    | ⟨0, _⟩ => show win2_2.index t (0 : Fin 2) * 10000 + 1 * p.val = t.val * 10000 + p.val; rw [e4]; omega
    | ⟨1, _⟩ => show win2_2.index t (1 : Fin 2) * 64 + 1 * q.val = q.val; rw [e5]; omega
  rw [View.read_apply, hE]
  show k2_pay1 (iblk2 V c 0 t) (iblk2 V c 1 t) (ix2 p q)
    = prod (K := 64) (V c main_v46) (V c main_arg4) (ix2 (⟨t.val * 10000 + p.val, by omega⟩ : Fin 100000) q)
  rw [pay_apply]
  unfold prod
  refine Finset.sum_congr rfl fun k _ => ?_
  rw [table_block V c t p k ⟨t.val * 10000 + p.val, by omega⟩ rfl, weight_block V c t k q] <;> rfl

/-- An index of the output is in point `t`'s block iff its row lies in the block's rows. -/
theorem mem_blk (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v47).slice (win2_2.rect t)).set ↔ _
  rw [View.set_slice_whole, Rect.mem_set_unit]
  exact Iff.rfl

/-- Row `r` is written back by point `r / 10000`. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_2 _, ?_⟩
  obtain ⟨-, -, -, -, e4, e5⟩ := idx ⟨(i 0).val / 10000, by rw [hN]; omega⟩
  rw [mem_blk]
  intro a
  match a with
  | ⟨0, _⟩ =>
    show win2_2.index _ (0 : Fin 2) * 10000 ≤ (i 0).val ∧ (i 0).val < win2_2.index _ (0 : Fin 2) * 10000 + 10000
    rw [e4]
    show (i 0).val / 10000 * 10000 ≤ (i 0).val ∧ (i 0).val < (i 0).val / 10000 * 10000 + 10000
    omega
  | ⟨1, _⟩ =>
    show win2_2.index _ (1 : Fin 2) * 64 ≤ (i 1).val ∧ (i 1).val < win2_2.index _ (1 : Fin 2) * 64 + 64
    rw [e5]
    omega

/-- The output array after the call: the whole product of the two arrays the call found. -/
theorem final (c : Dev nD) :
    (dat2 V c).arrAt 2 cfg2.N = prod (K := 64) (V c main_v46) (V c main_arg4) :=
  (dat2 V c).arrAt_eq_of_cover 2 _ (fun t _ => flushed_eq V c t) cover

end Cert.KernelIdeal.Call2

end
-- ==== Proof.Call3.lean ====
/-
  Pipelined call 3: the layer's combination `(a + h · d) + b`, ten blocks of 10000 rows.

  At grid point `t` the body loads rows `10000 t … 10000 t + 9999` of the aggregated table `a`, of the product `h` and
  of the `100000 x 1` column of factors `d`, and the whole `1 x 64` bias row `b`; it repeats the column along the 64
  columns and the row down the 10000 rows, forms `(a + h · d) + b`, and writes the block
  back to the same rows of the output. What point `t` writes back is block `t` of one whole-array function of
  the four arrays, and the ten blocks cover the output.
-/
import proofs.«154436_j91319594647569_1_alg».proof.Proof.Gen.KernelIdeal.Frame
import proofs.«154436_j91319594647569_1_alg».proof.Proof.Spec

set_option maxRecDepth 16384

noncomputable section

namespace Cert.KernelIdeal.Call3

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the three row-blocked inputs and the output move down the rows
    with the point, the bias row's block stays. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's value at entry `(p, q)` of its block. -/
theorem pay_apply (v0 v2 : Vec Ideal S10000x64 .f32) (v4 : Vec Ideal S10000x1 .f32) (v9 : Vec Ideal S1x64 .f32)
    (p : Fin 10000) (q : Fin 64) :
    k3_pay1 v0 v2 v4 v9 (ix2 p q)
      = (v0 (ix2 p q) + v2 (ix2 p q) * v4 (ix2 p (0 : Fin 1))) + v9 (ix2 (0 : Fin 1) q) :=
  (combine_block v0 v2 v4 v9 shapeCasts_S10000x64_S10000x64 shapeCasts_S10000x1_S10000x1 shapeCasts_S1x64_S1x64
    broadcasts_S10000x1_S10000x64 broadcasts_S1x64_S10000x64 p q)

/-- Row `p` of the aggregated table's block at point `t` is row `10000 t + p` of the table. -/
theorem agg_block (c : Dev nD) (t : Fin cfg3.N) (p : Fin 10000) (q : Fin 64) (r : Fin 100000)
    (hr : r.val = t.val * 10000 + p.val) :
    (iblk3 V c 0 t : Vec Ideal S10000x64 .f32) (ix2 p q) = (V c main_v60 : S100000x64.Idx → Elt Ideal .f32) (ix2 r q) := by
  obtain ⟨e0, e1, -, -, -, -, -, -, -, -⟩ := idx t
  unfold iblk3
  rw [View.read_apply]
  show V c main_v60 _ = V c main_v60 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 64 + 1 * q.val = q.val; rw [e1]; omega

/-- The same for the product's block. -/
theorem h_block (c : Dev nD) (t : Fin cfg3.N) (p : Fin 10000) (q : Fin 64) (r : Fin 100000)
    (hr : r.val = t.val * 10000 + p.val) :
    (iblk3 V c 1 t : Vec Ideal S10000x64 .f32) (ix2 p q) = (V c main_v47 : S100000x64.Idx → Elt Ideal .f32) (ix2 r q) := by
  obtain ⟨-, -, e2, e3, -, -, -, -, -, -⟩ := idx t
  unfold iblk3
  rw [View.read_apply]
  show V c main_v47 _ = V c main_v47 _
  congr 1
  funext a
  apply Fin.ext
  match a with
  | ⟨0, _⟩ => show win3_1.index t (0 : Fin 2) * 10000 + 1 * p.val = r.val; rw [e2, hr]; omega
  | ⟨1, _⟩ => show win3_1.index t (1 : Fin 2) * 64 + 1 * q.val = q.val; rw [e3]; omega

/-- Entry `p` of the factor column's block at point `t` is entry `10000 t + p` of the column. -/
theorem col_block (c : Dev nD) (t : Fin cfg3.N) (p : Fin 10000) (r : Fin 100000)
    (hr : r.val = t.val * 10000 + p.val) :
    (iblk3 V c 2 t : Vec Ideal S10000x1 .f32) (ix2 p (0 : Fin 1)) = (V c main_v30 : S100000x1.Idx → Elt Ideal .f32) (ix2 r (0 : Fin 1)) := by
  obtain ⟨-, -, -, -, e4, e5, -, -, -, -⟩ := idx t
  unfold iblk3
  rw [View.read_apply]
  show V c main_v30 _ = V c main_v30 _
  congr 1
  funext a
  apply Fin.ext
  match a with
  | ⟨0, _⟩ => show win3_2.index t (0 : Fin 2) * 10000 + 1 * p.val = r.val; rw [e4, hr]; omega
  | ⟨1, _⟩ => show win3_2.index t (1 : Fin 2) * 1 + 1 * 0 = 0; rw [e5]

/-- The bias row's block at every point is the row. -/
theorem row_block (c : Dev nD) (t : Fin cfg3.N) (q : Fin 64) :
    (iblk3 V c 3 t : Vec Ideal S1x64 .f32) (ix2 (0 : Fin 1) q) = (V c main_v61 : S1x64.Idx → Elt Ideal .f32) (ix2 (0 : Fin 1) q) := by
  obtain ⟨-, -, -, -, -, -, e6, e7, -, -⟩ := idx t
  unfold iblk3
  rw [View.read_apply]
  show V c main_v61 _ = V c main_v61 _
  congr 1
  funext a
  apply Fin.ext
  match a with
  | ⟨0, _⟩ => show win3_3.index t (0 : Fin 2) * 1 + 1 * 0 = 0; rw [e6]
  | ⟨1, _⟩ => show win3_3.index t (1 : Fin 2) * 64 + 1 * q.val = q.val; rw [e7]; omega

/-- What point `t` writes back is block `t` of the whole-array combination. -/
theorem flushed_eq (c : Dev nD) (t : Fin cfg3.N) :
    (dat3 V c).flushed 4 t = ((cfg3.win 4).blk t).view.read (Elt Ideal)
      (epiCols (V c main_v60) (V c main_v47) (V c main_v30) (V c main_v61)) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  obtain ⟨-, -, -, -, -, -, -, -, e8, e9⟩ := idx t
  have ht : t.val < 10 := lt_of_lt_of_eq t.isLt N_3
  funext j
  obtain ⟨p, q, rfl⟩ : ∃ (p : Fin 10000) (q : Fin 64), j = ix2 p q := ⟨j 0, j 1, eq_ix2 j⟩
  have hp : p.val < 10000 := p.isLt
  have hE : ((cfg3.win 4).blk t).view.emb (ix2 p q) = (ix2 (⟨t.val * 10000 + p.val, by omega⟩ : Fin 100000) q : S100000x64.Idx) := by
    funext a
    apply Fin.ext
    match a with
    | ⟨0, _⟩ => show win3_4.index t (0 : Fin 2) * 10000 + 1 * p.val = t.val * 10000 + p.val; rw [e8]; omega
    | ⟨1, _⟩ => show win3_4.index t (1 : Fin 2) * 64 + 1 * q.val = q.val; rw [e9]; omega
  rw [View.read_apply, hE]
  show k3_pay1 (iblk3 V c 0 t) (iblk3 V c 1 t) (iblk3 V c 2 t) (iblk3 V c 3 t) (ix2 p q)
    = (epiCols (V c main_v60) (V c main_v47) (V c main_v30) (V c main_v61)) (ix2 (⟨t.val * 10000 + p.val, by omega⟩ : Fin 100000) q)
  rw [pay_apply, agg_block V c t p q ⟨t.val * 10000 + p.val, by omega⟩ rfl, h_block V c t p q ⟨t.val * 10000 + p.val, by omega⟩ rfl,
    col_block V c t p ⟨t.val * 10000 + p.val, by omega⟩ rfl, row_block V c t q] <;> rfl

/-- An index of the output is in point `t`'s block iff its row lies in the block's rows. -/
theorem mem_blk (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v62).slice (win3_4.rect t)).set ↔ _
  rw [View.set_slice_whole, Rect.mem_set_unit]
  exact Iff.rfl

/-- Row `r` is written back by point `r / 10000`. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_4 _, ?_⟩
  obtain ⟨-, -, -, -, -, -, -, -, e8, e9⟩ := idx ⟨(i 0).val / 10000, by rw [hN]; omega⟩
  rw [mem_blk]
  intro a
  match a with
  | ⟨0, _⟩ =>
    show win3_4.index _ (0 : Fin 2) * 10000 ≤ (i 0).val ∧ (i 0).val < win3_4.index _ (0 : Fin 2) * 10000 + 10000
    rw [e8]
    show (i 0).val / 10000 * 10000 ≤ (i 0).val ∧ (i 0).val < (i 0).val / 10000 * 10000 + 10000
    omega
  | ⟨1, _⟩ =>
    show win3_4.index _ (1 : Fin 2) * 64 ≤ (i 1).val ∧ (i 1).val < win3_4.index _ (1 : Fin 2) * 64 + 64
    rw [e9]
    omega

/-- The output array after the call: the whole-array combination of the four arrays the call found. -/
theorem final (c : Dev nD) :
    (dat3 V c).arrAt 4 cfg3.N = epiCols (V c main_v60) (V c main_v47) (V c main_v30) (V c main_v61) :=
  (dat3 V c).arrAt_eq_of_cover 4 _ (fun t _ => flushed_eq V c t) cover

end Cert.KernelIdeal.Call3

end
-- ==== Proof.Call4.lean ====
/-
  Pipelined call 4: the product `main_v46 · main_arg6`, ten blocks of 10000 rows.

  At grid point `t` the body loads rows `10000 t … 10000 t + 9999` of the table and the whole weight, multiplies
  them (both narrowed to bf16, which changes nothing on extended reals) into a zero accumulator, and writes the
  10000 x 64 result back to the same rows of the output. So what point `t` writes back is block `t` of the one
  whole-array product, and the ten blocks cover the output: it ends holding the product.
-/
import proofs.«154436_j91319594647569_1_alg».proof.Proof.Gen.KernelIdeal.Frame
import proofs.«154436_j91319594647569_1_alg».proof.Proof.Spec

set_option maxRecDepth 16384

noncomputable section

open scoped BigOperators

namespace Cert.KernelIdeal.Call4

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the table's and the output's blocks move down the rows with the
    point, the weight's block stays. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's value at entry `(p, q)` of its block: the inner product of row `p` of the table block with column `q`
    of the weight. -/
theorem pay_apply (x0 : Vec Ideal S10000x64 .f32) (x1 : Vec Ideal S64x64 .f32) (p : Fin 10000) (q : Fin 64) :
    k4_pay1 x0 x1 (ix2 p q) = ∑ k : Fin 64, x0 (ix2 p k) * x1 (ix2 k q) := by
  unfold k4_pay1
  simp only [shapeCast_self]
  exact product_block x0 x1 bitsLt_bf16_f32 p q

/-- Row `p` of the table's block at point `t` is row `10000 t + p` of the table. -/
theorem table_block (c : Dev nD) (t : Fin cfg4.N) (p : Fin 10000) (k : Fin 64) (r : Fin 100000)
    (hr : r.val = t.val * 10000 + p.val) :
    (iblk4 V c 0 t : Vec Ideal S10000x64 .f32) (ix2 p k) = (V c main_v46 : S100000x64.Idx → Elt Ideal .f32) (ix2 r k) := by
  obtain ⟨e0, e1, -, -, -, -⟩ := idx t
  unfold iblk4
  rw [View.read_apply]
  show V c main_v46 _ = V c main_v46 _
  congr 1
  funext a
  apply Fin.ext
  match a with
  | ⟨0, _⟩ => show win4_0.index t (0 : Fin 2) * 10000 + 1 * p.val = r.val; rw [e0, hr]; omega
  | ⟨1, _⟩ => show win4_0.index t (1 : Fin 2) * 64 + 1 * k.val = k.val; rw [e1]; omega

/-- The weight's block at every point is the weight. -/
theorem weight_block (c : Dev nD) (t : Fin cfg4.N) (k : Fin 64) (q : Fin 64) :
    (iblk4 V c 1 t : Vec Ideal S64x64 .f32) (ix2 k q) = (V c main_arg6 : S64x64.Idx → Elt Ideal .f32) (ix2 k q) := by
  obtain ⟨-, -, e2, e3, -, -⟩ := idx t
  unfold iblk4
  rw [View.read_apply]
  show V c main_arg6 _ = V c main_arg6 _
  congr 1
  funext a
  apply Fin.ext
  match a with
  | ⟨0, _⟩ => show win4_1.index t (0 : Fin 2) * 64 + 1 * k.val = k.val; rw [e2]; omega
  | ⟨1, _⟩ => show win4_1.index t (1 : Fin 2) * 64 + 1 * q.val = q.val; rw [e3]; omega

/-- What point `t` writes back is block `t` of the whole product. -/
theorem flushed_eq (c : Dev nD) (t : Fin cfg4.N) :
    (dat4 V c).flushed 2 t = ((cfg4.win 2).blk t).view.read (Elt Ideal) (prod (K := 64) (V c main_v46) (V c main_arg6)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  obtain ⟨-, -, -, -, e4, e5⟩ := idx t
  have ht : t.val < 10 := lt_of_lt_of_eq t.isLt N_4
  funext j
  obtain ⟨p, q, rfl⟩ : ∃ (p : Fin 10000) (q : Fin 64), j = ix2 p q := ⟨j 0, j 1, eq_ix2 j⟩
  have hp : p.val < 10000 := p.isLt
  have hE : ((cfg4.win 2).blk t).view.emb (ix2 p q) = (ix2 (⟨t.val * 10000 + p.val, by omega⟩ : Fin 100000) q : S100000x64.Idx) := by
    funext a
    apply Fin.ext
    match a with
    | ⟨0, _⟩ => show win4_2.index t (0 : Fin 2) * 10000 + 1 * p.val = t.val * 10000 + p.val; rw [e4]; omega
    | ⟨1, _⟩ => show win4_2.index t (1 : Fin 2) * 64 + 1 * q.val = q.val; rw [e5]; omega
  rw [View.read_apply, hE]
  show k4_pay1 (iblk4 V c 0 t) (iblk4 V c 1 t) (ix2 p q)
    = prod (K := 64) (V c main_v46) (V c main_arg6) (ix2 (⟨t.val * 10000 + p.val, by omega⟩ : Fin 100000) q)
  rw [pay_apply]
  unfold prod
  refine Finset.sum_congr rfl fun k _ => ?_
  rw [table_block V c t p k ⟨t.val * 10000 + p.val, by omega⟩ rfl, weight_block V c t k q] <;> rfl

/-- An index of the output is in point `t`'s block iff its row lies in the block's rows. -/
theorem mem_blk (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v63).slice (win4_2.rect t)).set ↔ _
  rw [View.set_slice_whole, Rect.mem_set_unit]
  exact Iff.rfl

/-- Row `r` is written back by point `r / 10000`. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  refine ⟨⟨(i 0).val / 10000, by rw [hN]; omega⟩, flush4_2 _, ?_⟩
  obtain ⟨-, -, -, -, e4, e5⟩ := idx ⟨(i 0).val / 10000, by rw [hN]; omega⟩
  rw [mem_blk]
  intro a
  match a with
  | ⟨0, _⟩ =>
    show win4_2.index _ (0 : Fin 2) * 10000 ≤ (i 0).val ∧ (i 0).val < win4_2.index _ (0 : Fin 2) * 10000 + 10000
    rw [e4]
    show (i 0).val / 10000 * 10000 ≤ (i 0).val ∧ (i 0).val < (i 0).val / 10000 * 10000 + 10000
    omega
  | ⟨1, _⟩ =>
    show win4_2.index _ (1 : Fin 2) * 64 ≤ (i 1).val ∧ (i 1).val < win4_2.index _ (1 : Fin 2) * 64 + 64
    rw [e5]
    omega

/-- The output array after the call: the whole product of the two arrays the call found. -/
theorem final (c : Dev nD) :
    (dat4 V c).arrAt 2 cfg4.N = prod (K := 64) (V c main_v46) (V c main_arg6) :=
  (dat4 V c).arrAt_eq_of_cover 2 _ (fun t _ => flushed_eq V c t) cover

end Cert.KernelIdeal.Call4

end
-- ==== Proof.Call5.lean ====
/-
  Pipelined call 5: the layer's combination `(a + h · d) + b`, ten blocks of 10000 rows.

  At grid point `t` the body loads rows `10000 t … 10000 t + 9999` of the aggregated table `a`, of the product `h` and
  of the `100000 x 1` column of factors `d`, and the whole `1 x 64` bias row `b`; it repeats the column along the 64
  columns and the row down the 10000 rows, forms `(a + h · d) + b`, and writes the block
  back to the same rows of the output. What point `t` writes back is block `t` of one whole-array function of
  the four arrays, and the ten blocks cover the output.
-/
import proofs.«154436_j91319594647569_1_alg».proof.Proof.Gen.KernelIdeal.Frame
import proofs.«154436_j91319594647569_1_alg».proof.Proof.Spec

set_option maxRecDepth 16384

noncomputable section

namespace Cert.KernelIdeal.Call5

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the three row-blocked inputs and the output move down the rows
    with the point, the bias row's block stays. -/
theorem idx : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The body's value at entry `(p, q)` of its block. -/
theorem pay_apply (v0 v2 : Vec Ideal S10000x64 .f32) (v4 : Vec Ideal S10000x1 .f32) (v9 : Vec Ideal S1x64 .f32)
    (p : Fin 10000) (q : Fin 64) :
    k5_pay1 v0 v2 v4 v9 (ix2 p q)
      = (v0 (ix2 p q) + v2 (ix2 p q) * v4 (ix2 p (0 : Fin 1))) + v9 (ix2 (0 : Fin 1) q) :=
  (combine_block v0 v2 v4 v9 shapeCasts_S10000x64_S10000x64 shapeCasts_S10000x1_S10000x1 shapeCasts_S1x64_S1x64
    broadcasts_S10000x1_S10000x64 broadcasts_S1x64_S10000x64 p q)

/-- Row `p` of the aggregated table's block at point `t` is row `10000 t + p` of the table. -/
theorem agg_block (c : Dev nD) (t : Fin cfg5.N) (p : Fin 10000) (q : Fin 64) (r : Fin 100000)
    (hr : r.val = t.val * 10000 + p.val) :
    (iblk5 V c 0 t : Vec Ideal S10000x64 .f32) (ix2 p q) = (V c main_v76 : S100000x64.Idx → Elt Ideal .f32) (ix2 r q) := by
  obtain ⟨e0, e1, -, -, -, -, -, -, -, -⟩ := idx t
  unfold iblk5
  rw [View.read_apply]
  show V c main_v76 _ = V c main_v76 _
  congr 1
  funext a
  apply Fin.ext
  match a with
  | ⟨0, _⟩ => show win5_0.index t (0 : Fin 2) * 10000 + 1 * p.val = r.val; rw [e0, hr]; omega
  | ⟨1, _⟩ => show win5_0.index t (1 : Fin 2) * 64 + 1 * q.val = q.val; rw [e1]; omega

/-- The same for the product's block. -/
theorem h_block (c : Dev nD) (t : Fin cfg5.N) (p : Fin 10000) (q : Fin 64) (r : Fin 100000)
    (hr : r.val = t.val * 10000 + p.val) :
    (iblk5 V c 1 t : Vec Ideal S10000x64 .f32) (ix2 p q) = (V c main_v63 : S100000x64.Idx → Elt Ideal .f32) (ix2 r q) := by
  obtain ⟨-, -, e2, e3, -, -, -, -, -, -⟩ := idx t
  unfold iblk5
  rw [View.read_apply]
  show V c main_v63 _ = V c main_v63 _
  congr 1
  funext a
  apply Fin.ext
  match a with
  | ⟨0, _⟩ => show win5_1.index t (0 : Fin 2) * 10000 + 1 * p.val = r.val; rw [e2, hr]; omega
  | ⟨1, _⟩ => show win5_1.index t (1 : Fin 2) * 64 + 1 * q.val = q.val; rw [e3]; omega

/-- Entry `p` of the factor column's block at point `t` is entry `10000 t + p` of the column. -/
theorem col_block (c : Dev nD) (t : Fin cfg5.N) (p : Fin 10000) (r : Fin 100000)
    (hr : r.val = t.val * 10000 + p.val) :
    (iblk5 V c 2 t : Vec Ideal S10000x1 .f32) (ix2 p (0 : Fin 1)) = (V c main_v30 : S100000x1.Idx → Elt Ideal .f32) (ix2 r (0 : Fin 1)) := by
  obtain ⟨-, -, -, -, e4, e5, -, -, -, -⟩ := idx t
  unfold iblk5
  rw [View.read_apply]
  show V c main_v30 _ = V c main_v30 _
  congr 1
  funext a
  apply Fin.ext
  match a with
  | ⟨0, _⟩ => show win5_2.index t (0 : Fin 2) * 10000 + 1 * p.val = r.val; rw [e4, hr]; omega
  | ⟨1, _⟩ => show win5_2.index t (1 : Fin 2) * 1 + 1 * 0 = 0; rw [e5]

/-- The bias row's block at every point is the row. -/
theorem row_block (c : Dev nD) (t : Fin cfg5.N) (q : Fin 64) :
    (iblk5 V c 3 t : Vec Ideal S1x64 .f32) (ix2 (0 : Fin 1) q) = (V c main_v77 : S1x64.Idx → Elt Ideal .f32) (ix2 (0 : Fin 1) q) := by
  obtain ⟨-, -, -, -, -, -, e6, e7, -, -⟩ := idx t
  unfold iblk5
  rw [View.read_apply]
  show V c main_v77 _ = V c main_v77 _
  congr 1
  funext a
  apply Fin.ext
  match a with
  | ⟨0, _⟩ => show win5_3.index t (0 : Fin 2) * 1 + 1 * 0 = 0; rw [e6]
  | ⟨1, _⟩ => show win5_3.index t (1 : Fin 2) * 64 + 1 * q.val = q.val; rw [e7]; omega

/-- What point `t` writes back is block `t` of the whole-array combination. -/
theorem flushed_eq (c : Dev nD) (t : Fin cfg5.N) :
    (dat5 V c).flushed 4 t = ((cfg5.win 4).blk t).view.read (Elt Ideal)
      (epiCols (V c main_v76) (V c main_v63) (V c main_v30) (V c main_v77)) := by
  show (cfg5.win 4).cut (grid5.coords t) ((dat5 V c).after 4 t) = _
  rw [after5_4]
  unfold out5_4
  rw [View.canon_unit_zero hz]
  simp only [View.ld_unit_zero (S := S10000x64) hz, View.ld_unit_zero (S := S10000x1) hz, View.ld_unit_zero (S := S1x64) hz]
  obtain ⟨-, -, -, -, -, -, -, -, e8, e9⟩ := idx t
  have ht : t.val < 10 := lt_of_lt_of_eq t.isLt N_5
  funext j
  obtain ⟨p, q, rfl⟩ : ∃ (p : Fin 10000) (q : Fin 64), j = ix2 p q := ⟨j 0, j 1, eq_ix2 j⟩
  have hp : p.val < 10000 := p.isLt
  have hE : ((cfg5.win 4).blk t).view.emb (ix2 p q) = (ix2 (⟨t.val * 10000 + p.val, by omega⟩ : Fin 100000) q : S100000x64.Idx) := by
    funext a
    apply Fin.ext
    match a with
    | ⟨0, _⟩ => show win5_4.index t (0 : Fin 2) * 10000 + 1 * p.val = t.val * 10000 + p.val; rw [e8]; omega
    | ⟨1, _⟩ => show win5_4.index t (1 : Fin 2) * 64 + 1 * q.val = q.val; rw [e9]; omega
  rw [View.read_apply, hE]
  show k5_pay1 (iblk5 V c 0 t) (iblk5 V c 1 t) (iblk5 V c 2 t) (iblk5 V c 3 t) (ix2 p q)
    = (epiCols (V c main_v76) (V c main_v63) (V c main_v30) (V c main_v77)) (ix2 (⟨t.val * 10000 + p.val, by omega⟩ : Fin 100000) q)
  rw [pay_apply, agg_block V c t p q ⟨t.val * 10000 + p.val, by omega⟩ rfl, h_block V c t p q ⟨t.val * 10000 + p.val, by omega⟩ rfl,
    col_block V c t p ⟨t.val * 10000 + p.val, by omega⟩ rfl, row_block V c t q] <;> rfl

/-- An index of the output is in point `t`'s block iff its row lies in the block's rows. -/
theorem mem_blk (t : Fin cfg5.N) (i : S100000x64.Idx) :
    i ∈ ((cfg5.win 4).blk t).view.set ↔ ∀ a : Fin 2, win5_4.index t a * S10000x64.size a ≤ (i a).val
      ∧ (i a).val < win5_4.index t a * S10000x64.size a + S10000x64.size a := by
  show i ∈ ((View.whole main_v78).slice (win5_4.rect t)).set ↔ _
  rw [View.set_slice_whole, Rect.mem_set_unit]
  exact Iff.rfl

/-- Row `r` is written back by point `r / 10000`. -/
theorem cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 10 := N_5
  refine ⟨⟨(i 0).val / 10000, by rw [hN]; omega⟩, flush5_4 _, ?_⟩
  obtain ⟨-, -, -, -, -, -, -, -, e8, e9⟩ := idx ⟨(i 0).val / 10000, by rw [hN]; omega⟩
  rw [mem_blk]
  intro a
  match a with
  | ⟨0, _⟩ =>
    show win5_4.index _ (0 : Fin 2) * 10000 ≤ (i 0).val ∧ (i 0).val < win5_4.index _ (0 : Fin 2) * 10000 + 10000
    rw [e8]
    show (i 0).val / 10000 * 10000 ≤ (i 0).val ∧ (i 0).val < (i 0).val / 10000 * 10000 + 10000
    omega
  | ⟨1, _⟩ =>
    show win5_4.index _ (1 : Fin 2) * 64 ≤ (i 1).val ∧ (i 1).val < win5_4.index _ (1 : Fin 2) * 64 + 64
    rw [e9]
    omega

/-- The output array after the call: the whole-array combination of the four arrays the call found. -/
theorem final (c : Dev nD) :
    (dat5 V c).arrAt 4 cfg5.N = epiCols (V c main_v76) (V c main_v63) (V c main_v30) (V c main_v77) :=
  (dat5 V c).arrAt_eq_of_cover 4 _ (fun t _ => flushed_eq V c t) cover

end Cert.KernelIdeal.Call5

end
-- ==== Proof.Model.lean ====
/-
  The network both programs compute, as functions of the argument arrays.

  The edge array `e` (two rows of 1600000 indices: sources, then destinations) gives, by host operations common to
  the two programs: the source and destination vectors; every node's degree (one per edge ending at it, plus one);
  the reciprocal square root `dinv` of the degree where it is positive; every edge's weight `dinv[src] · dinv[dst]`
  (an index read after wrapping a negative one by the number of nodes); and the aggregation of a table `h`: into
  a table of zeros, add row `h[src]` times the edge's weight at row `dst`. These are carried as they are printed
  and never opened: the two programs apply the same operations to the same arrays.

  One layer is `(aggregate h + h · dinv²) + b` with `h = x · W`; the hidden layer keeps the positive part, and each
  of the two heads applies one more layer to the hidden table.
-/
import proofs.«154436_j91319594647569_1_alg».proof.Proof.Gen.KernelIdeal
import proofs.«154436_j91319594647569_1_alg».proof.Proof.Spec

noncomputable section

namespace Cert.Gcn

open Cert.KernelIdeal Cert.KernelIdeal.Facts₀ Idealize.ShloMosaic

/-! ## The graph's quantities, as the host operations print them -/

/-- The sources: row 0 of the edge array as a vector. -/
def srcOf (e : IVec S2x1600000 32) : IVec S1600000 32 :=
  shapeCast S1600000 (extractStridedSlice S1x1600000 ![0, 0] e slices_S2x1600000_S1x1600000_0_0) shapeCasts_S1x1600000_S1600000

/-- The destinations: row 1 of the edge array as a vector. -/
def dstOf (e : IVec S2x1600000 32) : IVec S1600000 32 :=
  shapeCast S1600000 (extractStridedSlice S1x1600000 ![1, 0] e slices_S2x1600000_S1x1600000_1_0) shapeCasts_S1x1600000_S1600000

/-- An index vector with its negative entries moved up by the number of nodes. -/
def wrapOf (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

section Floats
variable {F : FTy → Type} [FloatOps F]

/-- Every node's degree: ones added at the destinations into zeros, plus one. -/
def degOf (dst : IVec S1600000 32) : FVec F S100000 .f32 :=
  addf (Host.scatterAdd scatter_S100000_S1600000x1_S1600000_n_0_0_1
      (broadcastInDim S100000 ![] bcast_S_S100000 (constant (F := F) S_ .f32 0x00000000#32))
      (broadcastInDim S1600000x1 ![0] bcast_S1600000_S1600000x1_0 dst)
      (broadcastInDim S1600000 ![] bcast_S_S1600000 (constant (F := F) S_ .f32 0x3F800000#32)))
    (broadcastInDim S100000 ![] bcast_S_S100000 (constant (F := F) S_ .f32 0x3F800000#32))

/-- The reciprocal square root of the degree where the degree is positive, zero elsewhere. -/
def dinvOf (dst : IVec S1600000 32) : FVec F S100000 .f32 :=
  select (cmpf .ogt (degOf (F := F) dst) (broadcastInDim S100000 ![] bcast_S_S100000 (constant (F := F) S_ .f32 0x00000000#32)))
    (Host.rsqrt (degOf (F := F) dst))
    (broadcastInDim S100000 ![] bcast_S_S100000 (id (constant (F := F) S_ .f32 0x00000000#32)))

/-- Every edge's weight: the factor at its source times the factor at its destination. -/
def normOf (src dst : IVec S1600000 32) (dinv : FVec F S100000 .f32) : FVec F S1600000 .f32 :=
  mulf (Host.gather gather_S100000_S1600000x1_S1600000_n_0_n_n_0_1_1 dinv
        (broadcastInDim S1600000x1 ![0] bcast_S1600000_S1600000x1_0 (wrapOf src)))
    (Host.gather gather_S100000_S1600000x1_S1600000_n_0_n_n_0_1_1 dinv
        (broadcastInDim S1600000x1 ![0] bcast_S1600000_S1600000x1_0 (wrapOf dst)))

/-- The aggregation of a table along the edges: into zeros, row `h[src]` times the edge's weight added at row `dst`. -/
def aggOf (src dst : IVec S1600000 32) (nrm : FVec F S1600000 .f32) (h : FVec F S100000x64 .f32) : FVec F S100000x64 .f32 :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (mulf (Host.gather gather_S100000x64_S1600000x1_S1600000x64_1_0_n_n_0_1_164 h
          (broadcastInDim S1600000x1 ![0] bcast_S1600000_S1600000x1_0 (wrapOf src)))
      (broadcastInDim S1600000x64 ![0, 1] bcast_S1600000x1_S1600000x64_0_1
        (broadcastInDim S1600000x1 ![0] bcast_S1600000_S1600000x1_0 nrm)))

/-- The aggregation with the graph's own weights. -/
def aggregate (e : IVec S2x1600000 32) (h : FVec F S100000x64 .f32) : FVec F S100000x64 .f32 :=
  aggOf (srcOf e) (dstOf e) (normOf (srcOf e) (dstOf e) (dinvOf (F := F) (dstOf e))) h

/-- Every node's self-loop factor `dinv²`. -/
def selfOf (e : IVec S2x1600000 32) : FVec F S100000 .f32 :=
  mulf (dinvOf (F := F) (dstOf e)) (dinvOf (F := F) (dstOf e))

end Floats

/-! ## The network on the extended reals -/

/-- One layer applied to a table `h`: `(aggregate h + h · dinv²) + b`. -/
def layer (e : IVec S2x1600000 32) (h : FVec Ideal S100000x64 .f32) (b : FVec Ideal S64 .f32) : FVec Ideal S100000x64 .f32 :=
  epi (aggregate e h) h (selfOf e) b

/-- The hidden table: the positive part of the first layer on `x · W1`. -/
def hiddenTable (e : IVec S2x1600000 32) (x : FVec Ideal S100000x128 .f32) (w1 : FVec Ideal S128x64 .f32) (b1 : FVec Ideal S64 .f32) :
    FVec Ideal S100000x64 .f32 :=
  pos (layer e (prod x w1) b1)

/-- A head: one more layer on the hidden table times the head's weight. -/
def head (e : IVec S2x1600000 32) (x : FVec Ideal S100000x128 .f32) (w1 : FVec Ideal S128x64 .f32) (b1 : FVec Ideal S64 .f32)
    (w : FVec Ideal S64x64 .f32) (b : FVec Ideal S64 .f32) : FVec Ideal S100000x64 .f32 :=
  layer e (prod (hiddenTable e x w1 b1) w) b

end Cert.Gcn

end
-- ==== Proof.KernelValue.lean ====
/-
  What the idealized kernel's two result buffers hold at the last boundary: the model's two heads.

  The boundary contents are a fold: three stretches of host operations, then, alternately, a pipelined call (whose
  output array ends at the whole-array function of the arrays it found, by the six modules before this one) and a
  stretch of host operations. Walking the fold forward:
  * the first three stretches compute the sources, the destinations, the edges' weights and the column of
    self-loop factors from the edge array, and leave the other arguments alone;
  * call 0 leaves `x · W1`; the next stretch aggregates it and lays `b1` out as a row; call 1 leaves the hidden
    table (the column of factors is `dinv²` cast to a column, the row is `b1` cast to a row, so the call's
    combination is the model's layer);
  * call 2, a stretch, call 3 leave the first head in the same way; call 4, a stretch, call 5 the second.
  A buffer that a segment does not write keeps its contents: the list `carried` is kept whole across every segment.
-/
import proofs.«154436_j91319594647569_1_alg».proof.Proof.KernelRun
import proofs.«154436_j91319594647569_1_alg».proof.Proof.Call0
import proofs.«154436_j91319594647569_1_alg».proof.Proof.Call1
import proofs.«154436_j91319594647569_1_alg».proof.Proof.Call2
import proofs.«154436_j91319594647569_1_alg».proof.Proof.Call3
import proofs.«154436_j91319594647569_1_alg».proof.Proof.Call4
import proofs.«154436_j91319594647569_1_alg».proof.Proof.Call5
import proofs.«154436_j91319594647569_1_alg».proof.Proof.Model

set_option maxRecDepth 16384

noncomputable section

namespace Cert.KernelIdeal.Results

open Cert.KernelIdeal Cert.KernelIdeal.Gen Cert.Gcn
open Idealize.ShloMosaic Idealize.ShloMosaic.TcCoe Idealize.ShloMosaic.StableHlo Idealize.SL.Sem
open Idealize.ShloMosaic.Pipeline (Dat)

/-! ## The host stretches, read at the buffers that matter, from any contents `X` -/

section Host
variable {F : FTy → Type} [FloatOps F] (X : Valuation τ sig (Elt F))

/-- The sources, after the first three stretches. -/
theorem graph_src : StableHlo.after hostOps0_2 (StableHlo.after hostOps0_1 (StableHlo.after hostOps0 X)) (Proc.devRef .tc main_v1)
    = srcOf (X (Proc.devRef .tc main_arg1)) := by
  after_results_simp <;> rfl

/-- The destinations. -/
theorem graph_dst : StableHlo.after hostOps0_2 (StableHlo.after hostOps0_1 (StableHlo.after hostOps0 X)) (Proc.devRef .tc main_v3)
    = dstOf (X (Proc.devRef .tc main_arg1)) := by
  after_results_simp <;> rfl

/-- The edges' weights. -/
theorem graph_norm : StableHlo.after hostOps0_2 (StableHlo.after hostOps0_1 (StableHlo.after hostOps0 X)) (Proc.devRef .tc main_v28)
    = normOf (srcOf (X (Proc.devRef .tc main_arg1))) (dstOf (X (Proc.devRef .tc main_arg1))) (dinvOf (F := F) (dstOf (X (Proc.devRef .tc main_arg1)))) := by
  after_results_simp <;> rfl

/-- The self-loop factors, as a column. -/
theorem graph_col : StableHlo.after hostOps0_2 (StableHlo.after hostOps0_1 (StableHlo.after hostOps0 X)) (Proc.devRef .tc main_v30)
    = shapeCast S100000x1 (selfOf (F := F) (X (Proc.devRef .tc main_arg1))) shapeCasts_S100000_S100000x1 := by
  after_results_simp <;> rfl

/-- The other arguments are not written by the first three stretches. -/
theorem graph_keep : ∀ b ∈ ([main_arg0, main_arg2, main_arg3, main_arg4, main_arg5, main_arg6, main_arg7] : List (Ref sig .tc)),
    StableHlo.after hostOps0_2 (StableHlo.after hostOps0_1 (StableHlo.after hostOps0 X)) (Proc.devRef .tc b) = X (Proc.devRef .tc b) := by
  intro b hb
  fin_cases hb <;> after_results_simp

/-- The stretch after call 0: the aggregation of call 0's output … -/
theorem stretch1_agg : StableHlo.after hostOps1 X (Proc.devRef .tc main_v44)
    = aggOf (X (Proc.devRef .tc main_v1)) (X (Proc.devRef .tc main_v3)) (X (Proc.devRef .tc main_v28)) (X (Proc.devRef .tc main_v31)) := by
  after_results_simp <;> rfl

/-- … and the first bias as a row. -/
theorem stretch1_row : StableHlo.after hostOps1 X (Proc.devRef .tc main_v45)
    = shapeCast S1x64 (X (Proc.devRef .tc main_arg3)) shapeCasts_S64_S1x64 := by
  after_results_simp <;> rfl

/-- What that stretch does not write. -/
theorem stretch1_keep : ∀ b ∈ ([main_v1, main_v3, main_v28, main_v30, main_v31, main_arg3, main_arg4, main_arg5, main_arg6, main_arg7] : List (Ref sig .tc)),
    StableHlo.after hostOps1 X (Proc.devRef .tc b) = X (Proc.devRef .tc b) := by
  intro b hb
  fin_cases hb <;> after_results_simp

/-- The stretch after call 2: the aggregation of call 2's output … -/
theorem stretch3_agg : StableHlo.after hostOps3 X (Proc.devRef .tc main_v60)
    = aggOf (X (Proc.devRef .tc main_v1)) (X (Proc.devRef .tc main_v3)) (X (Proc.devRef .tc main_v28)) (X (Proc.devRef .tc main_v47)) := by
  after_results_simp <;> rfl

/-- … and the second bias as a row. -/
theorem stretch3_row : StableHlo.after hostOps3 X (Proc.devRef .tc main_v61)
    = shapeCast S1x64 (X (Proc.devRef .tc main_arg5)) shapeCasts_S64_S1x64 := by
  after_results_simp <;> rfl

/-- What that stretch does not write. -/
theorem stretch3_keep : ∀ b ∈ ([main_v1, main_v3, main_v28, main_v30, main_v46, main_v47, main_arg3, main_arg4, main_arg5, main_arg6, main_arg7] : List (Ref sig .tc)),
    StableHlo.after hostOps3 X (Proc.devRef .tc b) = X (Proc.devRef .tc b) := by
  intro b hb
  fin_cases hb <;> after_results_simp

/-- The stretch after call 4: the aggregation of call 4's output … -/
theorem stretch5_agg : StableHlo.after hostOps5 X (Proc.devRef .tc main_v76)
    = aggOf (X (Proc.devRef .tc main_v1)) (X (Proc.devRef .tc main_v3)) (X (Proc.devRef .tc main_v28)) (X (Proc.devRef .tc main_v63)) := by
  after_results_simp <;> rfl

/-- … and the third bias as a row. -/
theorem stretch5_row : StableHlo.after hostOps5 X (Proc.devRef .tc main_v77)
    = shapeCast S1x64 (X (Proc.devRef .tc main_arg7)) shapeCasts_S64_S1x64 := by
  after_results_simp <;> rfl

/-- What that stretch does not write. -/
theorem stretch5_keep : ∀ b ∈ ([main_v1, main_v3, main_v28, main_v30, main_v62, main_v63, main_arg3, main_arg4, main_arg5, main_arg6, main_arg7] : List (Ref sig .tc)),
    StableHlo.after hostOps5 X (Proc.devRef .tc b) = X (Proc.devRef .tc b) := by
  intro b hb
  fin_cases hb <;> after_results_simp

end Host

/-! ## The walk, on the extended reals -/

section Walk
variable (m : (ℓ : Loc nD τ sig) → Buf (Elt Ideal) ℓ) (ρ : Dev nD → PrngReg) (c : Dev nD)

/-- The edge array, the features, and the three layers' weights and biases, as launched. -/
abbrev aE : IVec S2x1600000 32 := m ((c.tc : Thread nD τ).loc main_arg1)
abbrev aX : FVec Ideal S100000x128 .f32 := m ((c.tc : Thread nD τ).loc main_arg0)
abbrev aW1 : FVec Ideal S128x64 .f32 := m ((c.tc : Thread nD τ).loc main_arg2)
abbrev aB1 : FVec Ideal S64 .f32 := m ((c.tc : Thread nD τ).loc main_arg3)
abbrev aW2 : FVec Ideal S64x64 .f32 := m ((c.tc : Thread nD τ).loc main_arg4)
abbrev aB2 : FVec Ideal S64 .f32 := m ((c.tc : Thread nD τ).loc main_arg5)
abbrev aW3 : FVec Ideal S64x64 .f32 := m ((c.tc : Thread nD τ).loc main_arg6)
abbrev aB3 : FVec Ideal S64 .f32 := m ((c.tc : Thread nD τ).loc main_arg7)

/-- The buffers every later segment leaves alone: the graph's four and the later layers' parameters. -/
abbrev carried : List (Ref sig .tc) :=
  [main_v1, main_v3, main_v28, main_v30, main_arg3, main_arg4, main_arg5, main_arg6, main_arg7]

/-! ### Boundary 3: the graph's quantities -/

theorem at3_src : W3 m ρ c (Proc.devRef .tc main_v1) = srcOf (aE m c) := graph_src (W0 m ρ c)
theorem at3_dst : W3 m ρ c (Proc.devRef .tc main_v3) = dstOf (aE m c) := graph_dst (W0 m ρ c)
theorem at3_norm : W3 m ρ c (Proc.devRef .tc main_v28)
    = normOf (srcOf (aE m c)) (dstOf (aE m c)) (dinvOf (F := Ideal) (dstOf (aE m c))) := graph_norm (W0 m ρ c)
theorem at3_col : W3 m ρ c (Proc.devRef .tc main_v30)
    = shapeCast S100000x1 (selfOf (F := Ideal) (aE m c)) shapeCasts_S100000_S100000x1 := graph_col (W0 m ρ c)
theorem at3_x : V3 m ρ c main_arg0 = aX m c := graph_keep (W0 m ρ c) main_arg0 (by decide)
theorem at3_w1 : V3 m ρ c main_arg2 = aW1 m c := graph_keep (W0 m ρ c) main_arg2 (by decide)
theorem at3_b1 : W3 m ρ c (Proc.devRef .tc main_arg3) = aB1 m c := graph_keep (W0 m ρ c) main_arg3 (by decide)
theorem at3_w2 : W3 m ρ c (Proc.devRef .tc main_arg4) = aW2 m c := graph_keep (W0 m ρ c) main_arg4 (by decide)
theorem at3_b2 : W3 m ρ c (Proc.devRef .tc main_arg5) = aB2 m c := graph_keep (W0 m ρ c) main_arg5 (by decide)
theorem at3_w3 : W3 m ρ c (Proc.devRef .tc main_arg6) = aW3 m c := graph_keep (W0 m ρ c) main_arg6 (by decide)
theorem at3_b3 : W3 m ρ c (Proc.devRef .tc main_arg7) = aB3 m c := graph_keep (W0 m ρ c) main_arg7 (by decide)

/-! ### The carried buffers, segment by segment -/

/-- Call 0 reads the features and the first weight and writes its own output: none of the carried buffers. -/
theorem keep4 : ∀ b ∈ carried, W4 m ρ c (Proc.devRef .tc b) = W3 m ρ c (Proc.devRef .tc b) := fun b hb =>
  W4_of_ne m ρ c b ((by decide : ∀ b ∈ carried, ∀ w : Fin 3, Pipeline.arrRef spec0 w ≠ b) b hb)

theorem keep5 : ∀ b ∈ carried, W5 m ρ c (Proc.devRef .tc b) = W4 m ρ c (Proc.devRef .tc b) := fun b hb =>
  stretch1_keep (W4 m ρ c) b ((by decide : ∀ b ∈ carried, b ∈ ([main_v1, main_v3, main_v28, main_v30, main_v31, main_arg3, main_arg4, main_arg5, main_arg6, main_arg7] : List (Ref sig .tc))) b hb)

/-- Call 1 reads the column of factors through an input window (which leaves its array as found) and touches no other
    carried buffer. -/
theorem keep6 : ∀ b ∈ carried, W6 m ρ c (Proc.devRef .tc b) = W5 m ρ c (Proc.devRef .tc b) := by
  intro b hb
  fin_cases hb <;> first
    | exact W6_of_ne m ρ c _ (by decide)
    | exact (W6_arr m ρ c 2).trans (((dat1 (V5 m ρ) c).arrAt_in 2 rfl _).trans (A_eq1 (V5 m ρ) c 2))

/-- Call 2 reads the second weight through an input window. -/
theorem keep7 : ∀ b ∈ carried, W7 m ρ c (Proc.devRef .tc b) = W6 m ρ c (Proc.devRef .tc b) := by
  intro b hb
  fin_cases hb <;> first
    | exact W7_of_ne m ρ c _ (by decide)
    | exact (W7_arr m ρ c 1).trans (((dat2 (V6 m ρ) c).arrAt_in 1 rfl _).trans (A_eq2 (V6 m ρ) c 1))

theorem keep8 : ∀ b ∈ carried, W8 m ρ c (Proc.devRef .tc b) = W7 m ρ c (Proc.devRef .tc b) := fun b hb =>
  stretch3_keep (W7 m ρ c) b ((by decide : ∀ b ∈ carried, b ∈ ([main_v1, main_v3, main_v28, main_v30, main_v46, main_v47, main_arg3, main_arg4, main_arg5, main_arg6, main_arg7] : List (Ref sig .tc))) b hb)

/-- Call 3 reads the column of factors through an input window. -/
theorem keep9 : ∀ b ∈ carried, W9 m ρ c (Proc.devRef .tc b) = W8 m ρ c (Proc.devRef .tc b) := by
  intro b hb
  fin_cases hb <;> first
    | exact W9_of_ne m ρ c _ (by decide)
    | exact (W9_arr m ρ c 2).trans (((dat3 (V8 m ρ) c).arrAt_in 2 rfl _).trans (A_eq3 (V8 m ρ) c 2))

/-- Call 4 reads the third weight through an input window. -/
theorem keep10 : ∀ b ∈ carried, W10 m ρ c (Proc.devRef .tc b) = W9 m ρ c (Proc.devRef .tc b) := by
  intro b hb
  fin_cases hb <;> first
    | exact W10_of_ne m ρ c _ (by decide)
    | exact (W10_arr m ρ c 1).trans (((dat4 (V9 m ρ) c).arrAt_in 1 rfl _).trans (A_eq4 (V9 m ρ) c 1))

theorem keep11 : ∀ b ∈ carried, W11 m ρ c (Proc.devRef .tc b) = W10 m ρ c (Proc.devRef .tc b) := fun b hb =>
  stretch5_keep (W10 m ρ c) b ((by decide : ∀ b ∈ carried, b ∈ ([main_v1, main_v3, main_v28, main_v30, main_v62, main_v63, main_arg3, main_arg4, main_arg5, main_arg6, main_arg7] : List (Ref sig .tc))) b hb)

/-- So a carried buffer holds at every later boundary what it held at boundary 3. -/
theorem carry4 (b : Ref sig .tc) (hb : b ∈ carried) : W4 m ρ c (Proc.devRef .tc b) = W3 m ρ c (Proc.devRef .tc b) := keep4 m ρ c b hb
theorem carry5 (b : Ref sig .tc) (hb : b ∈ carried) : W5 m ρ c (Proc.devRef .tc b) = W3 m ρ c (Proc.devRef .tc b) := (keep5 m ρ c b hb).trans (carry4 m ρ c b hb)
theorem carry6 (b : Ref sig .tc) (hb : b ∈ carried) : W6 m ρ c (Proc.devRef .tc b) = W3 m ρ c (Proc.devRef .tc b) := (keep6 m ρ c b hb).trans (carry5 m ρ c b hb)
theorem carry7 (b : Ref sig .tc) (hb : b ∈ carried) : W7 m ρ c (Proc.devRef .tc b) = W3 m ρ c (Proc.devRef .tc b) := (keep7 m ρ c b hb).trans (carry6 m ρ c b hb)
theorem carry8 (b : Ref sig .tc) (hb : b ∈ carried) : W8 m ρ c (Proc.devRef .tc b) = W3 m ρ c (Proc.devRef .tc b) := (keep8 m ρ c b hb).trans (carry7 m ρ c b hb)
theorem carry9 (b : Ref sig .tc) (hb : b ∈ carried) : W9 m ρ c (Proc.devRef .tc b) = W3 m ρ c (Proc.devRef .tc b) := (keep9 m ρ c b hb).trans (carry8 m ρ c b hb)
theorem carry10 (b : Ref sig .tc) (hb : b ∈ carried) : W10 m ρ c (Proc.devRef .tc b) = W3 m ρ c (Proc.devRef .tc b) := (keep10 m ρ c b hb).trans (carry9 m ρ c b hb)
theorem carry11 (b : Ref sig .tc) (hb : b ∈ carried) : W11 m ρ c (Proc.devRef .tc b) = W3 m ρ c (Proc.devRef .tc b) := (keep11 m ρ c b hb).trans (carry10 m ρ c b hb)

/-! ### The first layer -/

/-- Call 0 leaves `x · W1`. -/
theorem at4_h : W4 m ρ c (Proc.devRef .tc main_v31) = prod (K := 128) (aX m c) (aW1 m c) := by
  have h := (W4_arr m ρ c 2).trans (Call0.final (V3 m ρ) c)
  rw [at3_x m ρ c, at3_w1 m ρ c] at h
  exact h

/-- The stretch after it aggregates that table. -/
theorem at5_agg : V5 m ρ c main_v44 = aggregate (F := Ideal) (aE m c) (prod (K := 128) (aX m c) (aW1 m c)) := by
  have h := stretch1_agg (W4 m ρ c)
  rw [(carry4 m ρ c main_v1 (by decide)).trans (at3_src m ρ c), (carry4 m ρ c main_v3 (by decide)).trans (at3_dst m ρ c),
    (carry4 m ρ c main_v28 (by decide)).trans (at3_norm m ρ c), at4_h m ρ c] at h
  exact h

theorem at5_h : V5 m ρ c main_v31 = prod (K := 128) (aX m c) (aW1 m c) :=
  (stretch1_keep (W4 m ρ c) main_v31 (by decide)).trans (at4_h m ρ c)

theorem at5_col : V5 m ρ c main_v30 = shapeCast S100000x1 (selfOf (F := Ideal) (aE m c)) shapeCasts_S100000_S100000x1 :=
  (carry5 m ρ c main_v30 (by decide)).trans (at3_col m ρ c)

theorem at5_row : V5 m ρ c main_v45 = shapeCast S1x64 (aB1 m c) shapeCasts_S64_S1x64 := by
  have h := stretch1_row (W4 m ρ c)
  rw [(carry4 m ρ c main_arg3 (by decide)).trans (at3_b1 m ρ c)] at h
  exact h

/-- Call 1 leaves the hidden table. -/
theorem at6_hidden : W6 m ρ c (Proc.devRef .tc main_v46) = hiddenTable (aE m c) (aX m c) (aW1 m c) (aB1 m c) := by
  have h := (W6_arr m ρ c 4).trans (Call1.final (V5 m ρ) c)
  rw [at5_agg m ρ c, at5_h m ρ c, at5_col m ρ c, at5_row m ρ c, epiCols_shapeCast] at h
  exact h

/-! ### The first head -/

theorem at6_w2 : V6 m ρ c main_arg4 = aW2 m c := (carry6 m ρ c main_arg4 (by decide)).trans (at3_w2 m ρ c)

/-- Call 2 leaves the hidden table times the second weight. -/
theorem at7_h : W7 m ρ c (Proc.devRef .tc main_v47)
    = prod (K := 64) (hiddenTable (aE m c) (aX m c) (aW1 m c) (aB1 m c)) (aW2 m c) := by
  have h := (W7_arr m ρ c 2).trans (Call2.final (V6 m ρ) c)
  rw [show V6 m ρ c main_v46 = hiddenTable (aE m c) (aX m c) (aW1 m c) (aB1 m c) from at6_hidden m ρ c, at6_w2 m ρ c] at h
  exact h

/-- Call 2 reads the hidden table through an input window: it is still there. -/
theorem at7_hidden : W7 m ρ c (Proc.devRef .tc main_v46) = hiddenTable (aE m c) (aX m c) (aW1 m c) (aB1 m c) :=
  ((W7_arr m ρ c 0).trans (((dat2 (V6 m ρ) c).arrAt_in 0 rfl _).trans (A_eq2 (V6 m ρ) c 0))).trans (at6_hidden m ρ c)

theorem at8_agg : V8 m ρ c main_v60
    = aggregate (F := Ideal) (aE m c) (prod (K := 64) (hiddenTable (aE m c) (aX m c) (aW1 m c) (aB1 m c)) (aW2 m c)) := by
  have h := stretch3_agg (W7 m ρ c)
  rw [(carry7 m ρ c main_v1 (by decide)).trans (at3_src m ρ c), (carry7 m ρ c main_v3 (by decide)).trans (at3_dst m ρ c),
    (carry7 m ρ c main_v28 (by decide)).trans (at3_norm m ρ c), at7_h m ρ c] at h
  exact h

theorem at8_h : V8 m ρ c main_v47 = prod (K := 64) (hiddenTable (aE m c) (aX m c) (aW1 m c) (aB1 m c)) (aW2 m c) :=
  (stretch3_keep (W7 m ρ c) main_v47 (by decide)).trans (at7_h m ρ c)

theorem at8_col : V8 m ρ c main_v30 = shapeCast S100000x1 (selfOf (F := Ideal) (aE m c)) shapeCasts_S100000_S100000x1 :=
  (carry8 m ρ c main_v30 (by decide)).trans (at3_col m ρ c)

theorem at8_row : V8 m ρ c main_v61 = shapeCast S1x64 (aB2 m c) shapeCasts_S64_S1x64 := by
  have h := stretch3_row (W7 m ρ c)
  rw [(carry7 m ρ c main_arg5 (by decide)).trans (at3_b2 m ρ c)] at h
  exact h

theorem at8_hidden : W8 m ρ c (Proc.devRef .tc main_v46) = hiddenTable (aE m c) (aX m c) (aW1 m c) (aB1 m c) :=
  (stretch3_keep (W7 m ρ c) main_v46 (by decide)).trans (at7_hidden m ρ c)

/-- Call 3 leaves the first head. -/
theorem at9_mu : W9 m ρ c (Proc.devRef .tc main_v62) = head (aE m c) (aX m c) (aW1 m c) (aB1 m c) (aW2 m c) (aB2 m c) := by
  have h := (W9_arr m ρ c 4).trans (Call3.final (V8 m ρ) c)
  rw [at8_agg m ρ c, at8_h m ρ c, at8_col m ρ c, at8_row m ρ c, epiCols_shapeCast] at h
  exact h

/-! ### The second head -/

theorem at9_hidden : V9 m ρ c main_v46 = hiddenTable (aE m c) (aX m c) (aW1 m c) (aB1 m c) :=
  (W9_of_ne m ρ c main_v46 (by decide)).trans (at8_hidden m ρ c)

theorem at9_w3 : V9 m ρ c main_arg6 = aW3 m c := (carry9 m ρ c main_arg6 (by decide)).trans (at3_w3 m ρ c)

/-- Call 4 leaves the hidden table times the third weight. -/
theorem at10_h : W10 m ρ c (Proc.devRef .tc main_v63)
    = prod (K := 64) (hiddenTable (aE m c) (aX m c) (aW1 m c) (aB1 m c)) (aW3 m c) := by
  have h := (W10_arr m ρ c 2).trans (Call4.final (V9 m ρ) c)
  rw [at9_hidden m ρ c, at9_w3 m ρ c] at h
  exact h

theorem at11_agg : V11 m ρ c main_v76
    = aggregate (F := Ideal) (aE m c) (prod (K := 64) (hiddenTable (aE m c) (aX m c) (aW1 m c) (aB1 m c)) (aW3 m c)) := by
  have h := stretch5_agg (W10 m ρ c)
  rw [(carry10 m ρ c main_v1 (by decide)).trans (at3_src m ρ c), (carry10 m ρ c main_v3 (by decide)).trans (at3_dst m ρ c),
    (carry10 m ρ c main_v28 (by decide)).trans (at3_norm m ρ c), at10_h m ρ c] at h
  exact h

theorem at11_h : V11 m ρ c main_v63 = prod (K := 64) (hiddenTable (aE m c) (aX m c) (aW1 m c) (aB1 m c)) (aW3 m c) :=
  (stretch5_keep (W10 m ρ c) main_v63 (by decide)).trans (at10_h m ρ c)

theorem at11_col : V11 m ρ c main_v30 = shapeCast S100000x1 (selfOf (F := Ideal) (aE m c)) shapeCasts_S100000_S100000x1 :=
  (carry11 m ρ c main_v30 (by decide)).trans (at3_col m ρ c)

theorem at11_row : V11 m ρ c main_v77 = shapeCast S1x64 (aB3 m c) shapeCasts_S64_S1x64 := by
  have h := stretch5_row (W10 m ρ c)
  rw [(carry10 m ρ c main_arg7 (by decide)).trans (at3_b3 m ρ c)] at h
  exact h

/-! ### The two results at the last boundary -/

/-- The second result: call 5 leaves the second head. -/
theorem last_logstd : W12 m ρ c (Proc.devRef .tc main_v78) = head (aE m c) (aX m c) (aW1 m c) (aB1 m c) (aW3 m c) (aB3 m c) := by
  have h := (W12_arr m ρ c 4).trans (Call5.final (V11 m ρ) c)
  rw [at11_agg m ρ c, at11_h m ρ c, at11_col m ρ c, at11_row m ρ c, epiCols_shapeCast] at h
  exact h

/-- The first result: nothing after call 3 writes it. -/
theorem last_mu : W12 m ρ c (Proc.devRef .tc main_v62) = head (aE m c) (aX m c) (aW1 m c) (aB1 m c) (aW2 m c) (aB2 m c) :=
  (W12_of_ne m ρ c main_v62 (by decide)).trans
    ((stretch5_keep (W10 m ρ c) main_v62 (by decide)).trans
      ((W10_of_ne m ρ c main_v62 (by decide)).trans (at9_mu m ρ c)))

end Walk

end Cert.KernelIdeal.Results

end
-- ==== Proof.RefValue.lean ====
/-
  What the reference computes: the network of the model, for each of its two results.

  The reference's run ends with each result at one composed term of its host operations over the arguments. Folded
  back, that term is: the graph's quantities from the edge array (the reference recomputes them for each layer;
  they are the same operations on the same array); per layer `(aggregate h + h · spread(dinv²)) + spread(b)` with
  `h` a `dot_general`, `dinv²` laid out as a column and repeated along the 64 columns, `b` as a row repeated down
  the rows; and `maximum(·, 0)` on the hidden table. Read at an entry on the extended reals this is the model's
  `head`: a `dot_general` is the sum over the contracted axis, the two spreads read the vector at the row and at
  the column, and the maximum is taken entry by entry.
-/
import proofs.«154436_j91319594647569_1_alg».proof.Proof.RefRun
import proofs.«154436_j91319594647569_1_alg».proof.Proof.Model

noncomputable section

namespace Cert.ReferenceIdeal.Folded

open Cert.ReferenceIdeal Cert.ReferenceIdeal.Facts₀ Cert.Gcn
open Idealize.ShloMosaic Idealize.ShloMosaic.TcCoe Idealize.ShloMosaic.ValueIdx Idealize.SL.Sem

/-! ## The reference's term, folded -/

section Folding
variable {F : FTy → Type} [FloatOps F]

/-- One layer as the host spells it. -/
def hostLayer (e : IVec S2x1600000 32) (h : FVec F S100000x64 .f32) (b : FVec F S64 .f32) : FVec F S100000x64 .f32 :=
  addf (addf (aggregate (F := F) e h)
      (mulf h (broadcastInDim S100000x64 ![0, 1] bcast_S100000x1_S100000x64_0_1
        (broadcastInDim S100000x1 ![0] bcast_S100000_S100000x1_0 (selfOf (F := F) e)))))
    (broadcastInDim S100000x64 ![0, 1] bcast_S1x64_S100000x64_0_1 (broadcastInDim S1x64 ![1] bcast_S64_S1x64_1 b))

/-- The hidden table as the host spells it. -/
def hostHidden (e : IVec S2x1600000 32) (x : FVec F S100000x128 .f32) (w1 : FVec F S128x64 .f32) (b1 : FVec F S64 .f32) :
    FVec F S100000x64 .f32 :=
  maximumf (hostLayer e (Host.dotGeneral dot_S100000x128_S128x64_S100000x64_1_0_0_1_n_n none x w1) b1)
    (broadcastInDim S100000x64 ![] bcast_S_S100000x64 (constant (F := F) S_ .f32 0x00000000#32))

/-- A head as the host spells it. -/
def hostHead (e : IVec S2x1600000 32) (x : FVec F S100000x128 .f32) (w1 : FVec F S128x64 .f32) (b1 : FVec F S64 .f32)
    (w : FVec F S64x64 .f32) (b : FVec F S64 .f32) : FVec F S100000x64 .f32 :=
  hostLayer e (Host.dotGeneral dot_S100000x64_S64x64_S100000x64_1_0_0_1_n_n none (hostHidden e x w1 b1) w) b

variable (m : (ℓ : Loc nD τ sig) → Buf (Elt F) ℓ) (c : Dev nD)

/-- The first result's term is the head over the fifth and sixth arguments. -/
theorem res0_folded : Cert.ReferenceIdeal.ValueP.res_main_v98 m c
    = hostHead (m ((c.tc : Thread nD τ).loc main_arg1)) (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5)) := by
  unfold Cert.ReferenceIdeal.ValueP.res_main_v98
  rfl

/-- The second result's term is the head over the seventh and eighth arguments. -/
theorem res1_folded : Cert.ReferenceIdeal.ValueP.res_main_v145 m c
    = hostHead (m ((c.tc : Thread nD τ).loc main_arg1)) (m ((c.tc : Thread nD τ).loc main_arg0)) (m ((c.tc : Thread nD τ).loc main_arg2))
        (m ((c.tc : Thread nD τ).loc main_arg3)) (m ((c.tc : Thread nD τ).loc main_arg6)) (m ((c.tc : Thread nD τ).loc main_arg7)) := by
  unfold Cert.ReferenceIdeal.ValueP.res_main_v145
  rfl

end Folding

/-! ## The folded term on the extended reals is the model's -/

/-- A `dot_general` with a 128-wide contraction is the model's product. -/
theorem dot128_eq (x : FVec Ideal S100000x128 .f32) (w : FVec Ideal S128x64 .f32) :
    Host.dotGeneral dot_S100000x128_S128x64_S100000x64_1_0_0_1_n_n none x w = prod (K := 128) x w := by
  funext i
  obtain ⟨p, q, rfl⟩ : ∃ (p : Fin 100000) (q : Fin 64), i = ix2 p q := ⟨i 0, i 1, eq_ix2 i⟩
  exact Cert.Lib.PlainDot.dotGeneral_apply none _ x w p q

/-- A `dot_general` with a 64-wide contraction is the model's product. -/
theorem dot64_eq (x : FVec Ideal S100000x64 .f32) (w : FVec Ideal S64x64 .f32) :
    Host.dotGeneral dot_S100000x64_S64x64_S100000x64_1_0_0_1_n_n none x w = prod (K := 64) x w := by
  funext i
  obtain ⟨p, q, rfl⟩ : ∃ (p : Fin 100000) (q : Fin 64), i = ix2 p q := ⟨i 0, i 1, eq_ix2 i⟩
  exact Cert.Lib.PlainDot.dotGeneral_apply none _ x w p q

/-- The host's layer is the model's: the two spreads read the factor at the row and the bias at the column. -/
theorem hostLayer_eq (e : IVec S2x1600000 32) (h : FVec Ideal S100000x64 .f32) (b : FVec Ideal S64 .f32) :
    hostLayer (F := Ideal) e h b = layer e h b := by
  funext i
  obtain ⟨p, q, rfl⟩ : ∃ (p : Fin 100000) (q : Fin 64), i = ix2 p q := ⟨i 0, i 1, eq_ix2 i⟩
  unfold hostLayer layer epi
  rw [addf_apply, addf_apply, mulf_apply, spread_col_apply, spread_row_apply] <;> rfl

/-- `maximum(z, 0)` is the positive part. -/
theorem relu_eq (z : FVec Ideal S100000x64 .f32) :
    maximumf z (broadcastInDim S100000x64 ![] bcast_S_S100000x64 (constant (F := Ideal) S_ .f32 0x00000000#32)) = pos z :=
  rfl

/-- The host's head is the model's. -/
theorem hostHead_eq (e : IVec S2x1600000 32) (x : FVec Ideal S100000x128 .f32) (w1 : FVec Ideal S128x64 .f32) (b1 : FVec Ideal S64 .f32)
    (w : FVec Ideal S64x64 .f32) (b : FVec Ideal S64 .f32) : hostHead (F := Ideal) e x w1 b1 w b = head e x w1 b1 w b := by
  unfold hostHead hostHidden head hiddenTable
  rw [dot128_eq, hostLayer_eq, relu_eq, dot64_eq, hostLayer_eq]

end Cert.ReferenceIdeal.Folded

end
-- ==== Proof.lean ====
/-
  A two-layer graph convolution encoder with two heads (a hidden layer with a positive part, then a mean head and a
  log-deviation head), 100000 nodes, 1600000 edges, feature widths 128 / 64 / 64: six pipelined calls among host
  operations, against a plain reference.

  Both programs compute, per layer, `(aggregate (x · W) + (x · W) · dinv²) + b`, where the degrees, the factors
  `dinv`, the edges' weights and the aggregation (a gather of rows by the sources, a product with the weights, a
  scatter-add by the destinations) are the same host operations on the same edge array. They differ in how the rest is
  arranged: the kernel computes each product `x · W` and each combination in ten blocks of 10000 rows (the product's
  operands narrowed to bf16, which is the identity on extended reals), receives `dinv²` as a column and the bias as a
  row made by shape casts and repeats them inside the body, and computes the graph's quantities once; the
  reference uses whole `dot_general`s, spreads `dinv²` and the bias by two broadcasts each, and recomputes the graph's
  quantities for every layer. Entry by entry on the extended reals both are the same sums and products in the same
  order, so no entry needs to be finite and the precondition is not used.

  The kernel's run ends with the two result buffers at the last boundary of a fold over its host stretches and
  calls; walking the fold forward gives the model's two heads. The reference's run ends with each result at one
  composed term, which folds back to the same heads.
-/
import proofs.«154436_j91319594647569_1_alg».proof.Defs
import proofs.«154436_j91319594647569_1_alg».proof.Proof.Gen.Kernel
import proofs.«154436_j91319594647569_1_alg».proof.Proof.Gen.Kernel.Skeleton
import proofs.«154436_j91319594647569_1_alg».proof.Proof.Gen.Kernel.Launch
import proofs.«154436_j91319594647569_1_alg».proof.Proof.Gen.Kernel.Points
import proofs.«154436_j91319594647569_1_alg».proof.Proof.Gen.Kernel.Frame
import proofs.«154436_j91319594647569_1_alg».proof.Proof.Gen.KernelIdeal
import proofs.«154436_j91319594647569_1_alg».proof.Proof.Gen.KernelIdeal.Skeleton
import proofs.«154436_j91319594647569_1_alg».proof.Proof.Gen.KernelIdeal.Launch
import proofs.«154436_j91319594647569_1_alg».proof.Proof.Gen.KernelIdeal.Points
import proofs.«154436_j91319594647569_1_alg».proof.Proof.Gen.KernelIdeal.Frame
import proofs.«154436_j91319594647569_1_alg».proof.Proof.Gen.ReferenceIdeal
import proofs.«154436_j91319594647569_1_alg».proof.Proof.Gen.Pre_finite_inputs
import Idealize.ShloMosaic.Adequacy
import Idealize.ShloMosaic.Init
import proofs.«154436_j91319594647569_1_alg».proof.Proof.KernelValue
import proofs.«154436_j91319594647569_1_alg».proof.Proof.RefValue

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote nothing: the idealized kernel is the kernel's own text read on the extended reals. -/
theorem preserves : Cert.preserves_Kernel_KernelIdeal := trivial

/-- From memories agreeing on the arguments both programs end with the model's two heads: the mean head over the
    second weight and bias, the log-deviation head over the third. -/
theorem algebraic : Cert.algebraic_KernelIdeal_ReferenceIdeal := by
  intro m ρ m' ρ' _ hagree
  refine ⟨fun c => Cert.Gcn.head (Cert.KernelIdeal.Results.aE m c) (Cert.KernelIdeal.Results.aX m c) (Cert.KernelIdeal.Results.aW1 m c)
        (Cert.KernelIdeal.Results.aB1 m c) (Cert.KernelIdeal.Results.aW2 m c) (Cert.KernelIdeal.Results.aB2 m c),
      fun c => Cert.Gcn.head (Cert.KernelIdeal.Results.aE m c) (Cert.KernelIdeal.Results.aX m c) (Cert.KernelIdeal.Results.aW1 m c)
        (Cert.KernelIdeal.Results.aB1 m c) (Cert.KernelIdeal.Results.aW3 m c) (Cert.KernelIdeal.Results.aB3 m c), ?_, ?_⟩
  · exact (θ_run Cert.KernelIdeal.defs _ _).mono
      (fun r h c => ⟨(h c).1.trans (Cert.KernelIdeal.Results.last_mu m ρ c),
        (h c).2.1.trans (Cert.KernelIdeal.Results.last_logstd m ρ c), (h c).2.2⟩)
      (Cert.KernelIdeal.Results.run m ρ)
  · refine (θ_run Cert.ReferenceIdeal.defs _ _).mono (fun r h c => ?_) (Cert.ReferenceIdeal.ValueP.run (F := Ideal) m' ρ')
    obtain ⟨e0, e1, e2, e3, e4, e5, e6, e7⟩ := hagree c
    refine ⟨(h c).1.trans ?_, (h c).2.1.trans ?_, (h c).2.2⟩
    · rw [Cert.ReferenceIdeal.Folded.res0_folded, Cert.ReferenceIdeal.Folded.hostHead_eq, e0, e1, e2, e3, e4, e5]
    · rw [Cert.ReferenceIdeal.Folded.res1_folded, Cert.ReferenceIdeal.Folded.hostHead_eq, e0, e1, e2, e3, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
